-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S3200000 : Shape := ⟨1, ![3200000]⟩
abbrev S256x64 : Shape := ⟨2, ![256, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S64x40 .f32) (main_arg6 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x40 .f32 := Host.absf main_arg5
  let main_cst_6 : FVec F S_ .f32 := constant S_ .f32 0x7F800000#32
  let main_v20 : FVec F S64x40 .f32 := broadcastInDim S64x40 ![] bcast_S_S64x40 main_cst_6
  let main_v21 : IVec S64x40 1 := cmpf .olt main_v19 main_v20
  let main_c_7 : IVec S_ 1 := constantI S_ 1 1#1
  let main_v22 : IVec S_ 1 := (fun x v => Host.reduce IntOp.andi x v reducesTo_S64x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S100000x256 .f32) (main_arg1 : IVec S2x3200000 32) (main_arg2 : FVec F S3200000 .f32) (main_arg3 : FVec F S256x64 .f32) (main_arg4 : FVec F S64 .f32) (main_arg5 : FVec F S64x40 .f32) (main_arg6 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S256x64 .f32 := Host.absf main_arg3
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x256 : Shape := ⟨2, ![100000, 256]⟩
abbrev S2x3200000 : Shape := ⟨2, ![2, 3200000]⟩
abbrev S3200000 : Shape := ⟨1, ![3200000]⟩
abbrev S256x64 : Shape := ⟨2, ![256, 64]⟩
abbrev S64 : Shape := ⟨1, ![64]⟩
abbrev S64x40 : Shape := ⟨2, ![64, 40]⟩
abbrev S40 : Shape := ⟨1, ![40]⟩
abbrev S1x3200000 : Shape := ⟨2, ![1, 3200000]⟩
abbrev S100000x64 : Shape := ⟨2, ![100000, 64]⟩
abbrev S5000x256 : Shape := ⟨2, ![5000, 256]⟩
abbrev S5000x64 : Shape := ⟨2, ![5000, 64]⟩
abbrev S_ : Shape := ⟨0, ![]⟩
abbrev S100000 : Shape := ⟨1, ![100000]⟩
abbrev S3200000x1 : Shape := ⟨2, ![3200000, 1]⟩
abbrev S3200000x64 : Shape := ⟨2, ![3200000, 64]⟩
abbrev S1x64 : Shape := ⟨2, ![1, 64]⟩
abbrev S100000x1 : Shape := ⟨2, ![100000, 1]⟩
abbrev S5000x1 : Shape := ⟨2, ![5000, 1]⟩
abbrev S100000x40 : Shape := ⟨2, ![100000, 40]⟩
abbrev S5000x40 : Shape := ⟨2, ![5000, 40]⟩
abbrev S3200000x40 : Shape := ⟨2, ![3200000, 40]⟩
abbrev S1x40 : Shape := ⟨2, ![1, 40]⟩
abbrev S5000 : Shape := ⟨1, ![5000]⟩

abbrev nBuf : Space → Nat
  | .hbm => 111
  | .vmem => 28
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S3200000, .f32⟩
  | .hbm, ⟨3, _⟩ => ⟨S256x64, .f32⟩
  | .hbm, ⟨4, _⟩ => ⟨S64, .f32⟩
  | .hbm, ⟨5, _⟩ => ⟨S64x40, .f32⟩
  | .hbm, ⟨6, _⟩ => ⟨S40, .f32⟩
  | .hbm, ⟨7, _⟩ => ⟨S1x3200000, .i32⟩
  | .hbm, ⟨8, _⟩ => ⟨S3200000, .i32⟩
  | .hbm, ⟨9, _⟩ => ⟨S1x3200000, .i32⟩
  | .hbm, ⟨10, _⟩ => ⟨S3200000, .i32⟩
  | .hbm, ⟨11, _⟩ => ⟨S100000x64, .f32⟩
  | .hbm, ⟨12, _⟩ => ⟨S_, .f32⟩
  | .hbm, ⟨13, _⟩ => ⟨S100000, .f32⟩
  | .hbm, ⟨14, _⟩ => ⟨S3200000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S3200000, .i32⟩
  | .hbm, ⟨22, _⟩ => ⟨S3200000, .i1⟩
  | .hbm, ⟨23, _⟩ => ⟨S_, .i32⟩
  | .hbm, ⟨24, _⟩ => ⟨S3200000, .i32⟩
  | .hbm, ⟨25, _⟩ => ⟨S3200000, .i32⟩
  | .hbm, ⟨26, _⟩ => ⟨S3200000, .i32⟩
  | .hbm, ⟨27, _⟩ => ⟨S3200000x1, .i32⟩
  | .hbm, ⟨28, _⟩ => ⟨S3200000, .f32⟩
  | .hbm, ⟨29, _⟩ => ⟨S3200000, .f32⟩
  | .hbm, ⟨30, _⟩ => ⟨S_, .i32⟩
  | .hbm, ⟨31, _⟩ => ⟨S3200000, .i32⟩
  | .hbm, ⟨32, _⟩ => ⟨S3200000, .i1⟩
  | .hbm, ⟨33, _⟩ => ⟨S_, .i32⟩
  | .hbm, ⟨34, _⟩ => ⟨S3200000, .i32⟩
  | .hbm, ⟨35, _⟩ => ⟨S3200000, .i32⟩
  | .hbm, ⟨36, _⟩ => ⟨S3200000, .i32⟩
  | .hbm, ⟨37, _⟩ => ⟨S3200000x1, .i32⟩
  | .hbm, ⟨38, _⟩ => ⟨S3200000, .f32⟩
  | .hbm, ⟨39, _⟩ => ⟨S3200000, .f32⟩
  | .hbm, ⟨40, _⟩ => ⟨S_, .i32⟩
  | .hbm, ⟨41, _⟩ => ⟨S3200000, .i32⟩
  | .hbm, ⟨42, _⟩ => ⟨S3200000, .i1⟩
  | .hbm, ⟨43, _⟩ => ⟨S_, .i32⟩
  | .hbm, ⟨44, _⟩ => ⟨S3200000, .i32⟩
  | .hbm, ⟨45, _⟩ => ⟨S3200000, .i32⟩
  | .hbm, ⟨46, _⟩ => ⟨S3200000, .i32⟩
  | .hbm, ⟨47, _⟩ => ⟨S3200000x1, .i32⟩
  | .hbm, ⟨48, _⟩ => ⟨S3200000x64, .f32⟩
  | .hbm, ⟨49, _⟩ => ⟨S3200000x1, .f32⟩
  | .hbm, ⟨50, _⟩ => ⟨S3200000x64, .f32⟩
  | .hbm, ⟨51, _⟩ => ⟨S3200000x64, .f32⟩
  | .hbm, ⟨52, _⟩ => ⟨S_, .f32⟩
  | .hbm, ⟨53, _⟩ => ⟨S100000x64, .f32⟩
  | .hbm, ⟨54, _⟩ => ⟨S3200000x1, .i32⟩
  | .hbm, ⟨55, _⟩ => ⟨S100000x64, .f32⟩
  | .hbm, ⟨56, _⟩ => ⟨S100000, .f32⟩
  | .hbm, ⟨57, _⟩ => ⟨S1x64, .f32⟩
  | .hbm, ⟨58, _⟩ => ⟨S100000x1, .f32⟩
  | .hbm, ⟨59, _⟩ => ⟨S100000x64, .f32⟩
  | .hbm, ⟨60, _⟩ => ⟨S_, .f32⟩
  | .hbm, ⟨61, _⟩ => ⟨S3200000, .f32⟩
  | .hbm, ⟨62, _⟩ => ⟨S100000x40, .f32⟩
  | .hbm, ⟨63, _⟩ => ⟨S_, .f32⟩
  | .hbm, ⟨64, _⟩ => ⟨S100000, .f32⟩
  | .hbm, ⟨65, _⟩ => ⟨S3200000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000, .f32⟩
  | .hbm, ⟨71, _⟩ => ⟨S_, .i32⟩
  | .hbm, ⟨72, _⟩ => ⟨S3200000, .i32⟩
  | .hbm, ⟨73, _⟩ => ⟨S3200000, .i1⟩
  | .hbm, ⟨74, _⟩ => ⟨S_, .i32⟩
  | .hbm, ⟨75, _⟩ => ⟨S3200000, .i32⟩
  | .hbm, ⟨76, _⟩ => ⟨S3200000, .i32⟩
  | .hbm, ⟨77, _⟩ => ⟨S3200000, .i32⟩
  | .hbm, ⟨78, _⟩ => ⟨S3200000x1, .i32⟩
  | .hbm, ⟨79, _⟩ => ⟨S3200000, .f32⟩
  | .hbm, ⟨80, _⟩ => ⟨S3200000, .f32⟩
  | .hbm, ⟨81, _⟩ => ⟨S_, .i32⟩
  | .hbm, ⟨82, _⟩ => ⟨S3200000, .i32⟩
  | .hbm, ⟨83, _⟩ => ⟨S3200000, .i1⟩
  | .hbm, ⟨84, _⟩ => ⟨S_, .i32⟩
  | .hbm, ⟨85, _⟩ => ⟨S3200000, .i32⟩
  | .hbm, ⟨86, _⟩ => ⟨S3200000, .i32⟩
  | .hbm, ⟨87, _⟩ => ⟨S3200000, .i32⟩
  | .hbm, ⟨88, _⟩ => ⟨S3200000x1, .i32⟩
  | .hbm, ⟨89, _⟩ => ⟨S3200000, .f32⟩
  | .hbm, ⟨90, _⟩ => ⟨S3200000, .f32⟩
  | .hbm, ⟨91, _⟩ => ⟨S_, .i32⟩
  | .hbm, ⟨92, _⟩ => ⟨S3200000, .i32⟩
  | .hbm, ⟨93, _⟩ => ⟨S3200000, .i1⟩
  | .hbm, ⟨94, _⟩ => ⟨S_, .i32⟩
  | .hbm, ⟨95, _⟩ => ⟨S3200000, .i32⟩
  | .hbm, ⟨96, _⟩ => ⟨S3200000, .i32⟩
  | .hbm, ⟨97, _⟩ => ⟨S3200000, .i32⟩
  | .hbm, ⟨98, _⟩ => ⟨S3200000x1, .i32⟩
  | .hbm, ⟨99, _⟩ => ⟨S3200000x40, .f32⟩
  | .hbm, ⟨100, _⟩ => ⟨S3200000x1, .f32⟩
  | .hbm, ⟨101, _⟩ => ⟨S3200000x40, .f32⟩
  | .hbm, ⟨102, _⟩ => ⟨S3200000x40, .f32⟩
  | .hbm, ⟨103, _⟩ => ⟨S_, .f32⟩
  | .hbm, ⟨104, _⟩ => ⟨S100000x40, .f32⟩
  | .hbm, ⟨105, _⟩ => ⟨S3200000x1, .i32⟩
  | .hbm, ⟨106, _⟩ => ⟨S100000x40, .f32⟩
  | .hbm, ⟨107, _⟩ => ⟨S100000, .f32⟩
  | .hbm, ⟨108, _⟩ => ⟨S1x40, .f32⟩
  | .hbm, ⟨109, _⟩ => ⟨S100000x1, .f32⟩
  | .hbm, ⟨110, _⟩ => ⟨S100000x40, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x40, .f32⟩
  | .local _ .vmem, ⟨17, _⟩ => ⟨S5000x40, .f32⟩
  | .local _ .vmem, ⟨18, _⟩ => ⟨S5000x40, .f32⟩
  | .local _ .vmem, ⟨19, _⟩ => ⟨S5000x40, .f32⟩
  | .local _ .vmem, ⟨20, _⟩ => ⟨S5000x40, .f32⟩
  | .local _ .vmem, ⟨21, _⟩ => ⟨S5000x40, .f32⟩
  | .local _ .vmem, ⟨22, _⟩ => ⟨S5000x40, .f32⟩
  | .local _ .vmem, ⟨23, _⟩ => ⟨S5000x1, .f32⟩
  | .local _ .vmem, ⟨24, _⟩ => ⟨S5000x1, .f32⟩
  | .local _ .vmem, ⟨25, _⟩ => ⟨S1x40, .f32⟩
  | .local _ .vmem, ⟨26, _⟩ => ⟨S5000x40, .f32⟩
  | .local _ .vmem, ⟨27, _⟩ => ⟨S5000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_4 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_c_10 : Ref sig .tc := ⟨.hbm, 71, rfl⟩
abbrev main_v52 : Ref sig .tc := ⟨.hbm, 72, rfl⟩
abbrev main_v53 : Ref sig .tc := ⟨.hbm, 73, rfl⟩
abbrev main_c_11 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_c_12 : Ref sig .tc := ⟨.hbm, 81, rfl⟩
abbrev main_v60 : Ref sig .tc := ⟨.hbm, 82, rfl⟩
abbrev main_v61 : Ref sig .tc := ⟨.hbm, 83, rfl⟩
abbrev main_c_13 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_c_14 : Ref sig .tc := ⟨.hbm, 91, rfl⟩
abbrev main_v68 : Ref sig .tc := ⟨.hbm, 92, rfl⟩
abbrev main_v69 : Ref sig .tc := ⟨.hbm, 93, rfl⟩
abbrev main_c_15 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_16 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x40 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x40 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x40 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  inb_S5000x256_S5000x256_0_0 : ∀ a, (![0, 0] : Fin 2 → Nat) a + S5000x256.size a ≤ S5000x256.size a
  h_S5000x256 : 0 < S5000x256.numel
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  shapeCasts_S64_S1x64 : S64.ShapeCasts S1x64
  shapeCasts_S100000_S100000x1 : S100000.ShapeCasts S100000x1
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x40_S64x40_0_0 : ∀ a, (![0, 0] : Fin 2 → Nat) a + S64x40.size a ≤ S64x40.size a
  h_S64x40 : 0 < S64x40.numel
  inb_S5000x40_S5000x40_0_0 : ∀ a, (![0, 0] : Fin 2 → Nat) a + S5000x40.size a ≤ S5000x40.size a
  h_S5000x40 : 0 < S5000x40.numel
  bcast_S3200000x1_S3200000x40_0_1 : S3200000x1.BroadcastsInDim S3200000x40 (![0, 1] : Fin 2 → Fin S3200000x40.rank)
  bcast_S_S100000x40 : S_.BroadcastsInDim S100000x40 (![] : Fin 0 → Fin S100000x40.rank)
  shapeCasts_S40_S1x40 : S40.ShapeCasts S1x40
  shapeCasts_S5000x40_S5000x40 : S5000x40.ShapeCasts S5000x40
  broadcasts_S5000x1_S5000x40 : S5000x1.Broadcasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  dot_S5000x256_S256x64_S5000x64_1_0_0_1_n_n_wf : DotDims.WF S5000x256 S256x64 S5000x64 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S5000x64_S64x40_S5000x40_1_0_0_1_n_n_wf : DotDims.WF S5000x64 S64x40 S5000x40 [1] [0] [0] [1] [] []
  gather_S100000x40_S3200000x1_S3200000x40_1_0_n_n_0_1_140_wf : GatherDims.WF S100000x40 S3200000x1 S3200000x40 [1] [0] [] [0] [] 1 ![1, 40]
  scatter_S100000x40_S3200000x1_S3200000x40_1_0_0_1_wf : ScatterDims.WF S100000x40 S3200000x1 S3200000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x40.size a ≤ S64x40.size a
  hwx2_1 : ∀ i : grid2.Coords, EltTy.bits .f32 = 32 ∨ (Rect.block (s := S64x40) S64x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S100000x40.size a
  hwx2_2 : ∀ i : grid2.Coords, EltTy.bits .f32 = 32 ∨ (Rect.block (s := S100000x40) S5000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S100000x40.size a
  hwx3_0 : ∀ i : grid3.Coords, EltTy.bits .f32 = 32 ∨ (Rect.block (s := S100000x40) S5000x40.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x40.size a ≤ S100000x40.size a
  hwx3_1 : ∀ i : grid3.Coords, EltTy.bits .f32 = 32 ∨ (Rect.block (s := S100000x40) S5000x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x40.size a ≤ S1x40.size a
  hwx3_3 : ∀ i : grid3.Coords, EltTy.bits .f32 = 32 ∨ (Rect.block (s := S1x40) S1x40.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x40.size a ≤ S100000x40.size a
  hwx3_4 : ∀ i : grid3.Coords, EltTy.bits .f32 = 32 ∨ (Rect.block (s := S100000x40) S5000x40.size (cc3_transform_4 i) (hinb3_4 i)).WholeWords (EltTy.packing .f32)

variable [Facts₀]

def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf
def gather_S100000x40_S3200000x1_S3200000x40_1_0_n_n_0_1_140 : GatherDims S100000x40 S3200000x1 S3200000x40 where
  offsetDims := [1]
  collapsedSliceDims := [0]
  operandBatchingDims := []
  startIndicesBatchingDims := []
  startIndexMap := [0]
  indexVectorDim := 1
  sliceSizes := ![1, 40]
  wf := gather_S100000x40_S3200000x1_S3200000x40_1_0_n_n_0_1_140_wf
def scatter_S100000x40_S3200000x1_S3200000x40_1_0_0_1 : ScatterDims S100000x40 S3200000x1 S3200000x40 where
  updateWindowDims := [1]
  insertedWindowDims := [0]
  scatterDimsToOperandDims := [0]
  indexVectorDim := 1
  wf := scatter_S100000x40_S3200000x1_S3200000x40_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v80) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S5000x40.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v83) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v82) S1x40.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v84) S5000x40.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S3200000 : Shape := ⟨1, ![3200000]⟩
abbrev S256x64 : Shape := ⟨2, ![256, 64]⟩
abbrev S64 : Shape := ⟨1, ![64]⟩
abbrev S64x40 : Shape := ⟨2, ![64, 40]⟩
abbrev S40 : Shape := ⟨1, ![40]⟩
abbrev S1x3200000 : Shape := ⟨2, ![1, 3200000]⟩
abbrev S100000x64 : Shape := ⟨2, ![100000, 64]⟩
abbrev S_ : Shape := ⟨0, ![]⟩
abbrev S100000 : Shape := ⟨1, ![100000]⟩
abbrev S3200000x1 : Shape := ⟨2, ![3200000, 1]⟩
abbrev S3200000x64 : Shape := ⟨2, ![3200000, 64]⟩
abbrev S100000x1 : Shape := ⟨2, ![100000, 1]⟩
abbrev S1x64 : Shape := ⟨2, ![1, 64]⟩
abbrev S100000x40 : Shape := ⟨2, ![100000, 40]⟩
abbrev S3200000x40 : Shape := ⟨2, ![3200000, 40]⟩
abbrev S1x40 : Shape := ⟨2, ![1, 40]⟩

abbrev nBuf : Space → Nat
  | .hbm => 137
  | .vmem => 0
  | .smem => 0
  | _ => 0

abbrev hbmTy0_0 (i : Nat) : BufTy := match i % 128 with
  | 0 => ⟨S100000x256, .f32⟩
  | 1 => ⟨S2x3200000, .i32⟩
  | 2 => ⟨S3200000, .f32⟩
  | 3 => ⟨S256x64, .f32⟩
  | 4 => ⟨S64, .f32⟩
  | 5 => ⟨S64x40, .f32⟩
  | 6 => ⟨S40, .f32⟩
  | 7 => ⟨S1x3200000, .i32⟩
  | 8 => ⟨S3200000, .i32⟩
  | 9 => ⟨S1x3200000, .i32⟩
  | 10 => ⟨S3200000, .i32⟩
  | 11 => ⟨S100000x64, .f32⟩
  | 12 => ⟨S_, .f32⟩
  | 13 => ⟨S100000, .f32⟩
  | 14 => ⟨S3200000x1, .i32⟩
  | 15 => ⟨S100000, .f32⟩
  | 16 => ⟨S_, .f32⟩
  | 17 => ⟨S100000, .f32⟩
  | 18 => ⟨S100000, .f32⟩
  | 19 => ⟨S100000, .f32⟩
  | 20 => ⟨S_, .i32⟩
  | 21 => ⟨S3200000, .i32⟩
  | 22 => ⟨S3200000, .i1⟩
  | 23 => ⟨S_, .i32⟩
  | 24 => ⟨S3200000, .i32⟩
  | 25 => ⟨S3200000, .i32⟩
  | 26 => ⟨S3200000, .i32⟩
  | 27 => ⟨S3200000x1, .i32⟩
  | 28 => ⟨S3200000, .f32⟩
  | 29 => ⟨S3200000, .f32⟩
  | 30 => ⟨S_, .i32⟩
  | 31 => ⟨S3200000, .i32⟩
  | 32 => ⟨S3200000, .i1⟩
  | 33 => ⟨S_, .i32⟩
  | 34 => ⟨S3200000, .i32⟩
  | 35 => ⟨S3200000, .i32⟩
  | 36 => ⟨S3200000, .i32⟩
  | 37 => ⟨S3200000x1, .i32⟩
  | 38 => ⟨S3200000, .f32⟩
  | 39 => ⟨S3200000, .f32⟩
  | 40 => ⟨S3200000x1, .f32⟩
  | 41 => ⟨S_, .i32⟩
  | 42 => ⟨S3200000, .i32⟩
  | 43 => ⟨S3200000, .i1⟩
  | 44 => ⟨S_, .i32⟩
  | 45 => ⟨S3200000, .i32⟩
  | 46 => ⟨S3200000, .i32⟩
  | 47 => ⟨S3200000, .i32⟩
  | 48 => ⟨S3200000x1, .i32⟩
  | 49 => ⟨S3200000x64, .f32⟩
  | 50 => ⟨S3200000x64, .f32⟩
  | 51 => ⟨S3200000x64, .f32⟩
  | 52 => ⟨S_, .f32⟩
  | 53 => ⟨S100000x64, .f32⟩
  | 54 => ⟨S3200000x1, .i32⟩
  | 55 => ⟨S100000x64, .f32⟩
  | 56 => ⟨S100000, .f32⟩
  | 57 => ⟨S100000x1, .f32⟩
  | 58 => ⟨S100000x64, .f32⟩
  | 59 => ⟨S100000x64, .f32⟩
  | 60 => ⟨S100000x64, .f32⟩
  | 61 => ⟨S1x64, .f32⟩
  | 62 => ⟨S100000x64, .f32⟩
  | 63 => ⟨S100000x64, .f32⟩
  | 64 => ⟨S_, .f32⟩
  | 65 => ⟨S100000x64, .f32⟩
  | 66 => ⟨S100000x64, .f32⟩
  | 67 => ⟨S_, .f32⟩
  | 68 => ⟨S3200000, .f32⟩
  | 69 => ⟨S100000x40, .f32⟩
  | 70 => ⟨S_, .f32⟩
  | 71 => ⟨S100000, .f32⟩
  | 72 => ⟨S3200000x1, .i32⟩
  | 73 => ⟨S100000, .f32⟩
  | 74 => ⟨S_, .f32⟩
  | 75 => ⟨S100000, .f32⟩
  | 76 => ⟨S100000, .f32⟩
  | 77 => ⟨S100000, .f32⟩
  | 78 => ⟨S_, .i32⟩
  | 79 => ⟨S3200000, .i32⟩
  | 80 => ⟨S3200000, .i1⟩
  | 81 => ⟨S_, .i32⟩
  | 82 => ⟨S3200000, .i32⟩
  | 83 => ⟨S3200000, .i32⟩
  | 84 => ⟨S3200000, .i32⟩
  | 85 => ⟨S3200000x1, .i32⟩
  | 86 => ⟨S3200000, .f32⟩
  | 87 => ⟨S3200000, .f32⟩
  | 88 => ⟨S_, .i32⟩
  | 89 => ⟨S3200000, .i32⟩
  | 90 => ⟨S3200000, .i1⟩
  | 91 => ⟨S_, .i32⟩
  | 92 => ⟨S3200000, .i32⟩
  | 93 => ⟨S3200000, .i32⟩
  | 94 => ⟨S3200000, .i32⟩
  | 95 => ⟨S3200000x1, .i32⟩
  | 96 => ⟨S3200000, .f32⟩
  | 97 => ⟨S3200000, .f32⟩
  | 98 => ⟨S3200000x1, .f32⟩
  | 99 => ⟨S_, .i32⟩
  | 100 => ⟨S3200000, .i32⟩
  | 101 => ⟨S3200000, .i1⟩
  | 102 => ⟨S_, .i32⟩
  | 103 => ⟨S3200000, .i32⟩
  | 104 => ⟨S3200000, .i32⟩
  | 105 => ⟨S3200000, .i32⟩
  | 106 => ⟨S3200000x1, .i32⟩
  | 107 => ⟨S3200000x40, .f32⟩
  | 108 => ⟨S3200000x40, .f32⟩
  | 109 => ⟨S3200000x40, .f32⟩
  | 110 => ⟨S_, .f32⟩
  | 111 => ⟨S100000x40, .f32⟩
  | 112 => ⟨S3200000x1, .i32⟩
  | 113 => ⟨S100000x40, .f32⟩
  | 114 => ⟨S100000, .f32⟩
  | 115 => ⟨S100000x1, .f32⟩
  | 116 => ⟨S100000x40, .f32⟩
  | 117 => ⟨S100000x40, .f32⟩
  | 118 => ⟨S100000x40, .f32⟩
  | 119 => ⟨S1x40, .f32⟩
  | 120 => ⟨S100000x40, .f32⟩
  | 121 => ⟨S100000x40, .f32⟩
  | 122 => ⟨S_, .f32⟩
  | 123 => ⟨S100000, .f32⟩
  | 124 => ⟨S_, .f32⟩
  | 125 => ⟨S100000, .f32⟩
  | 126 => ⟨S100000, .f32⟩
  | 127 => ⟨S100000x1, .f32⟩
  | _ => ⟨S100000x256, .f32⟩

abbrev hbmTy0_1 (i : Nat) : BufTy := match i % 128 with
  | 0 => ⟨S100000x40, .f32⟩
  | 1 => ⟨S100000x40, .f32⟩
  | 2 => ⟨S100000x40, .f32⟩
  | 3 => ⟨S_, .f32⟩
  | 4 => ⟨S100000, .f32⟩
  | 5 => ⟨S100000x1, .f32⟩
  | 6 => ⟨S100000x1, .f32⟩
  | 7 => ⟨S100000x40, .f32⟩
  | 8 => ⟨S100000x40, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_4 : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_cst_7 : Ref sig .tc := ⟨.hbm, 67, rfl⟩
abbrev main_v49 : Ref sig .tc := ⟨.hbm, 68, rfl⟩
abbrev main_v50 : Ref sig .tc := ⟨.hbm, 69, rfl⟩
abbrev main_cst_8 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_9 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_10 : Ref sig .tc := ⟨.hbm, 78, rfl⟩
abbrev main_v57 : Ref sig .tc := ⟨.hbm, 79, rfl⟩
abbrev main_v58 : Ref sig .tc := ⟨.hbm, 80, rfl⟩
abbrev main_c_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_c_12 : Ref sig .tc := ⟨.hbm, 88, rfl⟩
abbrev main_v65 : Ref sig .tc := ⟨.hbm, 89, rfl⟩
abbrev main_v66 : Ref sig .tc := ⟨.hbm, 90, rfl⟩
abbrev main_c_13 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_c_14 : Ref sig .tc := ⟨.hbm, 99, rfl⟩
abbrev main_v74 : Ref sig .tc := ⟨.hbm, 100, rfl⟩
abbrev main_v75 : Ref sig .tc := ⟨.hbm, 101, rfl⟩
abbrev main_c_15 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_16 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_call1_cst : Ref sig .tc := ⟨.hbm, 122, rfl⟩
abbrev main_call1_v0 : Ref sig .tc := ⟨.hbm, 123, rfl⟩
abbrev main_call1_cst_0 : Ref sig .tc := ⟨.hbm, 124, rfl⟩
abbrev main_call1_v1 : Ref sig .tc := ⟨.hbm, 125, rfl⟩
abbrev main_call1_v2 : Ref sig .tc := ⟨.hbm, 126, rfl⟩
abbrev main_call1_v3 : Ref sig .tc := ⟨.hbm, 127, rfl⟩
abbrev main_call1_v4 : Ref sig .tc := ⟨.hbm, 128, rfl⟩
abbrev main_call1_v5 : Ref sig .tc := ⟨.hbm, 129, rfl⟩
abbrev main_call1_v6 : Ref sig .tc := ⟨.hbm, 130, rfl⟩
abbrev main_call1_cst_1 : Ref sig .tc := ⟨.hbm, 131, rfl⟩
abbrev main_call1_v7 : Ref sig .tc := ⟨.hbm, 132, rfl⟩
abbrev main_call1_v8 : Ref sig .tc := ⟨.hbm, 133, rfl⟩
abbrev main_call1_v9 : Ref sig .tc := ⟨.hbm, 134, rfl⟩
abbrev main_call1_v10 : Ref sig .tc := ⟨.hbm, 135, rfl⟩
abbrev main_v94 : Ref sig .tc := ⟨.hbm, 136, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3200000x1_S3200000x40_0_1 : S3200000x1.BroadcastsInDim S3200000x40 (![0, 1] : Fin 2 → Fin S3200000x40.rank)
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  dot_S100000x256_S256x64_S100000x64_1_0_0_1_n_n_wf : DotDims.WF S100000x256 S256x64 S100000x64 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x40_S100000x40_1_0_0_1_n_n_wf : DotDims.WF S100000x64 S64x40 S100000x40 [1] [0] [0] [1] [] []
  gather_S100000x40_S3200000x1_S3200000x40_1_0_n_n_0_1_140_wf : GatherDims.WF S100000x40 S3200000x1 S3200000x40 [1] [0] [] [0] [] 1 ![1, 40]
  scatter_S100000x40_S3200000x1_S3200000x40_1_0_0_1_wf : ScatterDims.WF S100000x40 S3200000x1 S3200000x40 [1] [0] [0] 1

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S3200000x1_S3200000x40_1_0_n_n_0_1_140 : GatherDims S100000x40 S3200000x1 S3200000x40 where
  offsetDims := [1]
  collapsedSliceDims := [0]
  operandBatchingDims := []
  startIndicesBatchingDims := []
  startIndexMap := [0]
  indexVectorDim := 1
  sliceSizes := ![1, 40]
  wf := gather_S100000x40_S3200000x1_S3200000x40_1_0_n_n_0_1_140_wf
def scatter_S100000x40_S3200000x1_S3200000x40_1_0_0_1 : ScatterDims S100000x40 S3200000x1 S3200000x40 where
  updateWindowDims := [1]
  insertedWindowDims := [0]
  scatterDimsToOperandDims := [0]
  indexVectorDim := 1
  wf := scatter_S100000x40_S3200000x1_S3200000x40_1_0_0_1_wf

class Facts : Prop extends Facts₀ where

variable [Facts]
-- ==== Proof.KernelRun.lean ====
/-
  The idealized kernel's run with its result named: every weakly fair execution of the four-region program ends, the
  seven argument arrays unchanged, and the result array holding what the last boundary of the program's fold through
  its host stretches and regions holds there (`W8` at the result buffer). The launch, the segments and the thread states
  are the generated frame's; only the final reading keeps one more buffer, the result.
-/
import proofs.«117384_j51410758533499_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the four regions among their host stretches, the result buffer read at the last boundary. -/
theorem run_named : θ_run defs (onTc (τ := τ) (main (F := F))) ⟨m, fun _ => 0, ρ⟩ (fun r => ∀ c : Dev nD,
      r.2.mem ((c.tc : Thread nD τ).loc main_v84) = W8 m ρ c (Proc.devRef .tc main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v84 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.RunValue

end
-- ==== Proof.Model.lean ====
/-
  The two-layer graph convolution both programs compute, as one function of the seven arguments.

  With N = 100000 nodes, E = 3200000 edges (sources `s`, targets `d`, the two rows of the edge table, a negative
  entry wrapped by N) and edge weights `w`, a layer is
      conv h w b = A h + (δ·δ) ⊙ h + b,   δ = (1 + Σ_{e : d e = ·} w e)^(-1/2),
      (A h) n = Σ_{e : d e = n} (δ (s e) · w e · δ (d e)) · h (s e),
  the degree, the gathers along the edges and the two scatter-sums being the host's operations on whole arrays, and
  the network is
      out = log_softmax (conv (relu (conv (x · W1) w b1) · W2) 1 b2)     (rows; the second layer's weights all 1).
  The dense stages — the two matrix products, the combination with the ramp, the combination with the row-wise
  log-softmax — are stated index by index; the edge stages as the host's whole-array operations.
-/
import proofs.«117384_j51410758533499_1_alg».proof.ReferenceIdeal
import proofs.«117384_j51410758533499_1_alg».proof.Proof.Gen.ReferenceIdeal
import Idealize.ShloMosaic.Lib.ValueIdx

noncomputable section

open scoped BigOperators

namespace Cert.Model

open Idealize.ShloMosaic Idealize.ShloMosaic.ValueIdx Cert.ReferenceIdeal Cert.ReferenceIdeal.Facts₀

/-- A whole array of extended reals of shape `s`. -/
abbrev FArr (s : Shape) : Type := FVec Ideal s .f32
/-- A whole array of 32-bit integers of shape `s`. -/
abbrev IArr (s : Shape) : Type := IVec s 32

/-! ## The dense stages, index by index -/

/-- A matrix product: entry (a, b) is the sum over c of A (a, c) · B (c, b). -/
def mm {m k n : ℕ} (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

/-- A vector as a one-column matrix. -/
def colOf {α : Type} {n : ℕ} (x : (⟨1, ![n]⟩ : Shape).Idx → α) : (⟨2, ![n, 1]⟩ : Shape).Idx → α := fun i => x (ix1 (i 0))

/-- A vector as a one-row matrix. -/
def rowOf {α : Type} {d : ℕ} (x : (⟨1, ![d]⟩ : Shape).Idx → α) : (⟨2, ![1, d]⟩ : Shape).Idx → α := fun i => x (ix1 (i 1))

/-- The combination of a layer: aggregate + (column entry of the row) · feature + (row entry of the column). -/
def comb {n d : ℕ} (agg h : (⟨2, ![n, d]⟩ : Shape).Idx → EReal) (dc : (⟨2, ![n, 1]⟩ : Shape).Idx → EReal)
    (br : (⟨2, ![1, d]⟩ : Shape).Idx → EReal) : (⟨2, ![n, d]⟩ : Shape).Idx → EReal :=
  fun i => agg i + dc (ix2 (i 0) (0 : Fin 1)) * h i + br (ix2 (0 : Fin 1) (i 1))

/-- The ramp: the maximum with the zero word's value. -/
def ramp {n d : ℕ} (v : (⟨2, ![n, d]⟩ : Shape).Idx → EReal) : (⟨2, ![n, d]⟩ : Shape).Idx → EReal :=
  fun i => max (v i) (Ideal.ofBits .f32 0x00000000#32)

/-- The maximum of row r, folded from the value of the word of -∞. -/
def rowMax {n d : ℕ} (v : (⟨2, ![n, d]⟩ : Shape).Idx → EReal) (r : Fin n) : EReal :=
  (Finset.univ : Finset (Fin d)).fold max (Ideal.ofBits .f32 0xFF800000#32) (fun c => v (ix2 r c))

/-- The row-wise log-softmax: (v − max) − log Σ exp (v − max), the maximum and the sum over the entry's row. -/
def logSoftmax {n d : ℕ} (v : (⟨2, ![n, d]⟩ : Shape).Idx → EReal) : (⟨2, ![n, d]⟩ : Shape).Idx → EReal :=
  fun i => (v i - rowMax v (i 0)) - Ideal.log (∑ c : Fin d, Ideal.exp (v (ix2 (i 0) c) - rowMax v (i 0)))

/-! ## The edge stages, as the host's operations on whole arrays -/

/-- Row 0 of the edge table: the sources. -/
def src (ei : IArr S2x3200000) : IArr S3200000 :=
  shapeCast _ (extractStridedSlice S1x3200000 ![0, 0] ei slices_S2x3200000_S1x3200000_0_0) shapeCasts_S1x3200000_S3200000

/-- Row 1 of the edge table: the targets. -/
def dst (ei : IArr S2x3200000) : IArr S3200000 :=
  shapeCast _ (extractStridedSlice S1x3200000 ![1, 0] ei slices_S2x3200000_S1x3200000_1_0) shapeCasts_S1x3200000_S3200000

/-- A negative node number wrapped by N. -/
def wrap (x : IArr S3200000) : IArr S3200000 :=
  select (cmpi .slt x (broadcastInDim S3200000 ![] bcast_S_S3200000 (constantI S_ 32 0#32)))
    (addi x (broadcastInDim S3200000 ![] bcast_S_S3200000 (constantI S_ 32 100000#32))) x

/-- The constant edge weight 1 of the second layer. -/
def ones : FArr S3200000 :=
  broadcastInDim S3200000 ![] bcast_S_S3200000 (constant (F := Ideal) S_ .f32 0x3F800000#32)

/-- δ: the inverse square root of one plus the weights summed into their targets. -/
def dinv (d : IArr S3200000) (w : FArr S3200000) :
    FArr S100000 :=
  Host.rsqrt (addf
    (Host.scatterAdd scatter_S100000_S3200000x1_S3200000_n_0_0_1 (broadcastInDim S100000 ![] bcast_S_S100000 (constant (F := Ideal) S_ .f32 0x00000000#32))
      (broadcastInDim S3200000x1 ![0] bcast_S3200000_S3200000x1_0 d) w)
    (broadcastInDim S100000 ![] bcast_S_S100000 (constant (F := Ideal) S_ .f32 0x3F800000#32)))

/-- The edge coefficients δ (s e) · w e · δ (d e). -/
def coef (s d : IArr S3200000) (w : FArr S3200000)
    (dv : FArr S100000) : FArr S3200000 :=
  mulf (mulf (Host.gather gather_S100000_S3200000x1_S3200000_n_0_n_n_0_1_1 dv (broadcastInDim S3200000x1 ![0] bcast_S3200000_S3200000x1_0 (wrap s))) w)
    (Host.gather gather_S100000_S3200000x1_S3200000_n_0_n_n_0_1_1 dv (broadcastInDim S3200000x1 ![0] bcast_S3200000_S3200000x1_0 (wrap d)))

/-- The aggregate of 64-wide features: coefficient times the source's row, summed into the target's row. -/
def agg64 (h : FArr S100000x64) (s d : IArr S3200000)
    (cf : FArr S3200000) : FArr S100000x64 :=
  Host.scatterAdd scatter_S100000x64_S3200000x1_S3200000x64_1_0_0_1 (broadcastInDim S100000x64 ![] bcast_S_S100000x64 (constant (F := Ideal) S_ .f32 0x00000000#32))
    (broadcastInDim S3200000x1 ![0] bcast_S3200000_S3200000x1_0 d)
    (mulf (broadcastInDim S3200000x64 ![0, 1] bcast_S3200000x1_S3200000x64_0_1 (broadcastInDim S3200000x1 ![0] bcast_S3200000_S3200000x1_0 cf))
      (Host.gather gather_S100000x64_S3200000x1_S3200000x64_1_0_n_n_0_1_164 h (broadcastInDim S3200000x1 ![0] bcast_S3200000_S3200000x1_0 (wrap s))))

/-- The aggregate of 40-wide features. -/
def agg40 (h : FArr S100000x40) (s d : IArr S3200000)
    (cf : FArr S3200000) : FArr S100000x40 :=
  Host.scatterAdd scatter_S100000x40_S3200000x1_S3200000x40_1_0_0_1 (broadcastInDim S100000x40 ![] bcast_S_S100000x40 (constant (F := Ideal) S_ .f32 0x00000000#32))
    (broadcastInDim S3200000x1 ![0] bcast_S3200000_S3200000x1_0 d)
    (mulf (broadcastInDim S3200000x40 ![0, 1] bcast_S3200000x1_S3200000x40_0_1 (broadcastInDim S3200000x1 ![0] bcast_S3200000_S3200000x1_0 cf))
      (Host.gather gather_S100000x40_S3200000x1_S3200000x40_1_0_n_n_0_1_140 h (broadcastInDim S3200000x1 ![0] bcast_S3200000_S3200000x1_0 (wrap s))))

/-! ## The network -/

/-- The first layer's output after the ramp. -/
def hidden (x : FArr S100000x256) (ei : IArr S2x3200000)
    (w : FArr S3200000) (W1 : FArr S256x64)
    (b1 : FArr S64) : FArr S100000x64 :=
  ramp (comb (agg64 (mm x W1) (src ei) (dst ei) (coef (src ei) (dst ei) w (dinv (dst ei) w))) (mm x W1)
    (colOf (mulf (F := Ideal) (s := S100000) (φ := .f32) (dinv (dst ei) w) (dinv (dst ei) w))) (rowOf b1))

/-- The network's output. -/
def out (x : FArr S100000x256) (ei : IArr S2x3200000)
    (w : FArr S3200000) (W1 : FArr S256x64)
    (b1 : FArr S64) (W2 : FArr S64x40)
    (b2 : FArr S40) : FArr S100000x40 :=
  logSoftmax (comb (agg40 (mm (hidden x ei w W1 b1) W2) (src ei) (dst ei) (coef (src ei) (dst ei) ones (dinv (dst ei) ones)))
    (mm (hidden x ei w W1 b1) W2) (colOf (mulf (F := Ideal) (s := S100000) (φ := .f32) (dinv (dst ei) ones) (dinv (dst ei) ones))) (rowOf b2))

end Cert.Model

end
-- ==== Proof.LibRows.lean ====
/-
  Rows and columns of a rank-2 array, read at an index.

  For an `[a, b]` array: a reduction along axis 1 at row `r` ranges over the entries `(r, c)`, a
  reduction along axis 0 at column `c` over the entries `(r, c)`; a vector of `a` entries cast to
  the column shape `[a, 1]` reads entry `r` at `(r, 0)`, and that column broadcast to `[a, b]`
  reads it at every `(r, c)`.  The sums are plain `Finset` sums and the maxima folds of `max` from
  the accumulator's value, for the vector unit's reductions and for the host's `reduce` alike.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

open scoped BigOperators

namespace Cert.LibRows

open Idealize.ShloMosaic Idealize.ShloMosaic.ValueIdx

variable {a b : ℕ}

/-- Row `r` with lane `k` put back at axis 1 is `(r, k)`. -/
theorem lift_axis1 (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Column `c` with row `k` put back at axis 0 is `(k, c)`. -/
theorem lift_axis0 (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- A lane sum of an `[a, b]` vector, at row `r`: the sum of the row's entries. -/
theorem laneSum_apply {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ src acc h hφ hacc (ix1 r) = ∑ c : Fin b, src (ix2 r c) := by
  rw [Ideal.multiReduction_add_single]
  exact Finset.sum_congr rfl fun k _ => congrArg src (lift_axis1 h r k)

/-- A lane maximum of an `[a, b]` vector, at row `r`: the fold of `max` over the row from the accumulator. -/
theorem laneMax_apply {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun c => src (ix2 r c)) := by
  rw [Ideal.multiReduction_maximumf_single]
  have hf : (src ∘ h.lift (ix1 r)) = fun c : Fin b => src (ix2 r c) :=
    funext fun k => congrArg src (lift_axis1 h r k)
  exact congrArg (fun f => Finset.fold max (Ideal.ofBits φ acc) f (Finset.univ : Finset (Fin b))) hf

/-- A sum over the rows of an `[a, b]` vector, at column `c`. -/
theorem rowSum_apply {φ : FTy} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (c : Fin b) :
    multiReduction .add [0] ⟨1, ![b]⟩ src acc h hφ hacc (ix1 c) = ∑ r : Fin a, src (ix2 r c) := by
  rw [Ideal.multiReduction_add_single]
  exact Finset.sum_congr rfl fun k _ => congrArg src (lift_axis0 h c k)

/-- The host's `reduce` with a maximum body along axis 1 of an f32 `[a, b]` array, at row `r`: the same fold,
    from the initial value's one entry. -/
theorem hostLaneMax_apply {u : Shape} (x : (⟨2, ![a, b]⟩ : Shape).Idx → Ideal .f32) (init : u.Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < u.numel) (r : Fin a) :
    Host.reduce FloatOps.maximumf x init h' hu (ix1 r)
      = (Finset.univ : Finset (Fin b)).fold max (init (Shape.Idx.first hu)) (fun c => x (ix2 r c)) := by
  rw [Host.reduce_eq_fold_single FloatOps.maximumf x init h' h hu]
  have hf : (x ∘ h.lift (ix1 r)) = fun c : Fin b => x (ix2 r c) :=
    funext fun k => congrArg x (lift_axis1 h r k)
  exact congrArg (fun f => Finset.fold max (init (Shape.Idx.first hu)) f (Finset.univ : Finset (Fin b))) hf

/-- An `[a]` vector cast to the column shape `[a, 1]` reads, at `(r, u)`, entry `r`. -/
theorem shapeCast_a_a1_apply {α : Type} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `[a, 1]` column broadcast to `[a, b]` reads, at `(r, c)`, the column's entry of row `r`. -/
theorem broadcastTo_a1_ab_apply {α : Type} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Cert.LibRows

end
-- ==== Proof.LibMat.lean ====
/-
  A matrix product read at an index. For the plain dimension numbers (rows × contraction times contraction × columns)
  a `tpu.matmul` into the zero accumulator, at the ideal values, is at (a, b) the sum over the contracted coordinate `c`
  of the left operand at (a, c) times the right operand at (c, b): the contraction's index set has one axis, and the sum
  over it is re-indexed by that axis's coordinate.
-/
import Idealize.ShloMosaic.PureOps.Ideal.Laws
import Idealize.ShloMosaic.Lib.ValueIdx
import Idealize.ShloMosaic.Lib.ValueLayout

noncomputable section

open scoped BigOperators

namespace Cert.LibMat

open Idealize.ShloMosaic Idealize.ShloMosaic.ValueIdx

/-- The plain dimension numbers over any witness of their well-formedness. -/
abbrev plainDims {m k n : ℕ} (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- A plain matrix product into the zero accumulator, at (a, b): the sum over the contracted coordinate. -/
theorem matmul_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (plainDims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (plainDims w) k rfl rfl).symm]
  refine Finset.sum_congr rfl fun c _ => ?_
  have c2 := contrEquiv1_symm_val (plainDims w) k rfl rfl c
  have l2 : (plainDims w).lhsIdx (ix2 a b) ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (plainDims w).rhsIdx (ix2 a b) ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMat

end
-- ==== Proof.RegionMm.lean ====
/-
  The two matrix-product regions, as whole arrays.

  Each region walks 20 row blocks of 5000 rows. At block t the body multiplies rows 5000·t … 5000·t + 4999 of the left
  array by the whole right array into the zero accumulator, so entry (p, q) of what it writes back is
  Σ_c left (5000·t + p, c) · right (c, q): block t of the product of the two arrays. The 20 blocks cover all 100000
  rows, so the region's output array ends at the product, whatever the arrays held when the region was entered.
-/
import proofs.«117384_j51410758533499_1_alg».proof.Proof.Gen.KernelIdeal.Frame
import proofs.«117384_j51410758533499_1_alg».proof.Proof.Model
import proofs.«117384_j51410758533499_1_alg».proof.Proof.LibMat
set_option maxRecDepth 16384

noncomputable section

open scoped BigOperators

namespace Cert.KernelIdeal.RegionMm

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-! ## The first product: [100000, 256] · [256, 64] -/

/-- The body's value at (p, q): row p of the left block against column q of the right block. -/
theorem body0_apply (x0 : Vec Ideal S5000x256 .f32) (x1 : Vec Ideal S256x64 .f32) (p : Fin 5000) (q : Fin 64) :
    k0_pay1 x0 x1 (ix2 p q) = ∑ c : Fin 256, x0 (ix2 p c) * x1 (ix2 c q) := by
  unfold k0_pay1
  exact Cert.LibMat.matmul_plain_apply _ none x0 x1 p q

/-- Where block t of each window sits: the row blocks move with t, the right operand stays. -/
theorem blocks0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the two arrays as the region finds them. -/
theorem flushed0 (c : Dev nD) (t : Fin cfg0.N) :
    (dat0 (F := Ideal) V c).flushed 2 t = ((cfg0.win 2).blk t).view.read (Elt Ideal) (Cert.Model.mm (V c main_arg0) (V c main_arg3)) := by
  show (cfg0.win 2).cut (grid0.coords t) ((dat0 V c).after 2 t) = _
  rw [after0_2]
  unfold out0_2
  rw [View.canon_unit_zero zero_offsets]
  simp only [View.ld_unit_zero (S := S5000x256) zero_offsets, View.ld_unit_zero (S := S256x64) zero_offsets]
  obtain ⟨e0, e1, e2, e3, e4, e5⟩ := blocks0 t
  funext j
  show k0_pay1 (iblk0 V c 0 t) (iblk0 V c 1 t) j = Cert.Model.mm (V c main_arg0) (V c main_arg3) (((cfg0.win 2).blk t).view.emb j)
  refine (congrArg (k0_pay1 (iblk0 V c 0 t) (iblk0 V c 1 t)) (eq_ix2 (n0 := 5000) (n1 := 64) j)).trans ?_
  refine (body0_apply _ _ (j 0) (j 1)).trans ?_
  refine Finset.sum_congr rfl fun k _ => ?_
  have h0 : iblk0 V c 0 t (ix2 (j 0) k) = V c main_arg0 (ix2 ((((cfg0.win 2).blk t).view.emb j) 0) k) := by
    show V c main_arg0 (((cfg0.win 0).blk t).view.emb (ix2 (j 0) k)) = _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  have h1 : iblk0 V c 1 t (ix2 k (j 1)) = V c main_arg3 (ix2 k ((((cfg0.win 2).blk t).view.emb j) 1)) := by
    show V c main_arg3 (((cfg0.win 1).blk t).view.emb (ix2 k (j 1))) = _
    refine congrArg (V c main_arg3) (funext fun a => Fin.ext ?_)
    match a with
    | ⟨0, _⟩ => show win0_1.index t (0 : Fin 2) * 256 + 1 * k.val = k.val; omega
    | ⟨1, _⟩ => show win0_1.index t (1 : Fin 2) * 64 + 1 * (j 1).val = win0_2.index t (1 : Fin 2) * 64 + 1 * (j 1).val; omega
  rw [h0, h1]

/-- An index of the output array is in point t's block iff each coordinate is in the block's range. -/
theorem mem_block0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v4).slice (win0_2.rect t)).set ↔ _
  rw [View.set_slice_whole, Rect.mem_set_unit]
  exact Iff.rfl

/-- Row r lies in block r / 5000. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  refine ⟨⟨(i 0).val / 5000, by show (i 0).val / 5000 < 20; omega⟩, flush0_2 _, ?_⟩
  rw [mem_block0]
  obtain ⟨e0, e1, e2, e3, e4, e5⟩ := blocks0 ⟨(i 0).val / 5000, by show (i 0).val / 5000 < 20; omega⟩
  intro a
  match a with
  | ⟨0, _⟩ => show win0_2.index _ (0 : Fin 2) * 5000 ≤ (i 0).val ∧ (i 0).val < win0_2.index _ (0 : Fin 2) * 5000 + 5000; rw [e4]; show (i 0).val / 5000 * 5000 ≤ _ ∧ _ < (i 0).val / 5000 * 5000 + 5000; omega
  | ⟨1, _⟩ => show win0_2.index _ (1 : Fin 2) * 64 ≤ (i 1).val ∧ (i 1).val < win0_2.index _ (1 : Fin 2) * 64 + 64; rw [e5]; omega

/-- The first product region leaves its output array at the product of its two input arrays. -/
theorem region0 (c : Dev nD) : (dat0 (F := Ideal) V c).arrAt 2 cfg0.N = Cert.Model.mm (V c main_arg0) (V c main_arg3) :=
  (dat0 (F := Ideal) V c).arrAt_eq_of_cover 2 (Cert.Model.mm (V c main_arg0) (V c main_arg3)) (fun t _ => flushed0 V c t) cover0

/-! ## The second product: [100000, 64] · [64, 40] -/

/-- The body's value at (p, q); the body's cast of the left block to its own shape changes nothing. -/
theorem body2_apply (x0 : Vec Ideal S5000x64 .f32) (x1 : Vec Ideal S64x40 .f32) (p : Fin 5000) (q : Fin 40) :
    k2_pay1 x0 x1 (ix2 p q) = ∑ c : Fin 64, x0 (ix2 p c) * x1 (ix2 c q) := by
  unfold k2_pay1
  rw [shapeCast_self]
  exact Cert.LibMat.matmul_plain_apply _ none x0 x1 p q

theorem blocks2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem flushed2 (c : Dev nD) (t : Fin cfg2.N) :
    (dat2 (F := Ideal) V c).flushed 2 t = ((cfg2.win 2).blk t).view.read (Elt Ideal) (Cert.Model.mm (V c main_v43) (V c main_arg5)) := by
  show (cfg2.win 2).cut (grid2.coords t) ((dat2 V c).after 2 t) = _
  rw [after2_2]
  unfold out2_2
  rw [View.canon_unit_zero zero_offsets]
  simp only [View.ld_unit_zero (S := S5000x64) zero_offsets, View.ld_unit_zero (S := S64x40) zero_offsets]
  obtain ⟨e0, e1, e2, e3, e4, e5⟩ := blocks2 t
  funext j
  show k2_pay1 (iblk2 V c 0 t) (iblk2 V c 1 t) j = Cert.Model.mm (V c main_v43) (V c main_arg5) (((cfg2.win 2).blk t).view.emb j)
  refine (congrArg (k2_pay1 (iblk2 V c 0 t) (iblk2 V c 1 t)) (eq_ix2 (n0 := 5000) (n1 := 40) j)).trans ?_
  refine (body2_apply _ _ (j 0) (j 1)).trans ?_
  refine Finset.sum_congr rfl fun k _ => ?_
  have h0 : iblk2 V c 0 t (ix2 (j 0) k) = V c main_v43 (ix2 ((((cfg2.win 2).blk t).view.emb j) 0) k) := by
    show V c main_v43 (((cfg2.win 0).blk t).view.emb (ix2 (j 0) k)) = _
    refine congrArg (V c main_v43) (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 64 + 1 * k.val = k.val; omega
  have h1 : iblk2 V c 1 t (ix2 k (j 1)) = V c main_arg5 (ix2 k ((((cfg2.win 2).blk t).view.emb j) 1)) := by
    show V c main_arg5 (((cfg2.win 1).blk t).view.emb (ix2 k (j 1))) = _
    refine congrArg (V c main_arg5) (funext fun a => Fin.ext ?_)
    match a with
    | ⟨0, _⟩ => show win2_1.index t (0 : Fin 2) * 64 + 1 * k.val = k.val; omega
    | ⟨1, _⟩ => show win2_1.index t (1 : Fin 2) * 40 + 1 * (j 1).val = win2_2.index t (1 : Fin 2) * 40 + 1 * (j 1).val; omega
  rw [h0, h1]

theorem mem_block2 (t : Fin cfg2.N) (i : S100000x40.Idx) :
    i ∈ ((cfg2.win 2).blk t).view.set ↔ ∀ a : Fin 2, win2_2.index t a * S5000x40.size a ≤ (i a).val ∧ (i a).val < win2_2.index t a * S5000x40.size a + S5000x40.size a := by
  show i ∈ ((View.whole main_v45).slice (win2_2.rect t)).set ↔ _
  rw [View.set_slice_whole, Rect.mem_set_unit]
  exact Iff.rfl

theorem cover2 (i : S100000x40.Idx) : ∃ t : Fin cfg2.N, (cfg2.win 2).flush t = true ∧ i ∈ ((cfg2.win 2).blk t).view.set := by
  have hi0 : (i 0).val < 100000 := (i 0).isLt
  have hi1 : (i 1).val < 40 := (i 1).isLt
  refine ⟨⟨(i 0).val / 5000, by show (i 0).val / 5000 < 20; omega⟩, flush2_2 _, ?_⟩
  rw [mem_block2]
  obtain ⟨e0, e1, e2, e3, e4, e5⟩ := blocks2 ⟨(i 0).val / 5000, by show (i 0).val / 5000 < 20; omega⟩
  intro a
  match a with
  | ⟨0, _⟩ => show win2_2.index _ (0 : Fin 2) * 5000 ≤ (i 0).val ∧ (i 0).val < win2_2.index _ (0 : Fin 2) * 5000 + 5000; rw [e4]; show (i 0).val / 5000 * 5000 ≤ _ ∧ _ < (i 0).val / 5000 * 5000 + 5000; omega
  | ⟨1, _⟩ => show win2_2.index _ (1 : Fin 2) * 40 ≤ (i 1).val ∧ (i 1).val < win2_2.index _ (1 : Fin 2) * 40 + 40; rw [e5]; omega

/-- The second product region leaves its output array at the product of its two input arrays. -/
theorem region2 (c : Dev nD) : (dat2 (F := Ideal) V c).arrAt 2 cfg2.N = Cert.Model.mm (V c main_v43) (V c main_arg5) :=
  (dat2 (F := Ideal) V c).arrAt_eq_of_cover 2 (Cert.Model.mm (V c main_v43) (V c main_arg5)) (fun t _ => flushed2 V c t) cover2

end Cert.KernelIdeal.RegionMm

end
-- ==== Proof.LibCombine.lean ====
/-
  A layer's combination and the row-wise log-softmax, as the vector unit computes them on an [n, d] block.

  The combination adds to an [n, d] block the product of an [n, 1] column, repeated along the rows' entries, with a
  second [n, d] block, and then a [1, d] row repeated down the rows: at (r, c) it is
  a (r, c) + col (r, 0) · h (r, c) + row (0, c). The log-softmax takes each row's maximum by a lane reduction from the
  word of -∞, repeats it along the row, subtracts, exponentiates, sums each row by a lane reduction from the zero word,
  takes the logarithm of the sums as a column, repeats it along the rows and subtracts again: at (r, c) it is
  (v (r, c) − M r) − log Σ_k exp (v (r, k) − M r) with M r the fold of max over row r.
-/
import proofs.«117384_j51410758533499_1_alg».proof.Proof.Model
import proofs.«117384_j51410758533499_1_alg».proof.Proof.LibRows

noncomputable section

open scoped BigOperators

namespace Cert.LibCombine

open Idealize.ShloMosaic Idealize.ShloMosaic.ValueIdx

variable {n d : ℕ}

/-- A [1, d] row repeated down n rows reads, at (r, c), the row's entry c. -/
theorem broadcastTo_1b_ab_apply {α : Type} (v : (⟨2, ![1, d]⟩ : Shape).Idx → α)
    (h : (⟨2, ![1, d]⟩ : Shape).Broadcasts ⟨2, ![n, d]⟩) (r : Fin n) (c : Fin d) :
    broadcastTo ⟨2, ![n, d]⟩ v h (ix2 r c) = v (ix2 (0 : Fin 1) c) := by
  refine broadcastTo_apply v h (ix2 r c) (ix2 (0 : Fin 1) c) fun ax => ?_
  match ax with
  | ⟨0, _⟩ => rfl
  | ⟨1, _⟩ =>
    show c.val = if d = 1 then 0 else c.val
    split
    · have := c.isLt; omega
    · rfl

/-- The combination on a block is the model's combination of the block's four pieces. -/
theorem comb_block (x0 x4 : FVec Ideal ⟨2, ![n, d]⟩ .f32) (x2 : FVec Ideal ⟨2, ![n, 1]⟩ .f32) (x9 : FVec Ideal ⟨2, ![1, d]⟩ .f32)
    (h1 : (⟨2, ![n, 1]⟩ : Shape).Broadcasts ⟨2, ![n, d]⟩) (h2 : (⟨2, ![1, d]⟩ : Shape).Broadcasts ⟨2, ![n, d]⟩) :
    addf (addf x0 (mulf (broadcastTo ⟨2, ![n, d]⟩ x2 h1) x4)) (broadcastTo ⟨2, ![n, d]⟩ x9 h2) = Cert.Model.comb x0 x4 x2 x9 := by
  funext i
  obtain ⟨p, q, rfl⟩ : ∃ (p : Fin n) (q : Fin d), i = ix2 p q := ⟨i 0, i 1, eq_ix2 i⟩
  show x0 (ix2 p q) + broadcastTo ⟨2, ![n, d]⟩ x2 h1 (ix2 p q) * x4 (ix2 p q) + broadcastTo ⟨2, ![n, d]⟩ x9 h2 (ix2 p q) = _
  rw [Cert.LibRows.broadcastTo_a1_ab_apply, broadcastTo_1b_ab_apply]
  rfl

/-- The model's combination at (p, q) reads its four pieces at (p, q), (p, q), (p, 0) and (0, q): pieces that agree
    there combine to the same value. -/
theorem comb_congr {n' : ℕ} (a h : (⟨2, ![n, d]⟩ : Shape).Idx → EReal) (dc : (⟨2, ![n, 1]⟩ : Shape).Idx → EReal)
    (br : (⟨2, ![1, d]⟩ : Shape).Idx → EReal) (a' h' : (⟨2, ![n', d]⟩ : Shape).Idx → EReal)
    (dc' : (⟨2, ![n', 1]⟩ : Shape).Idx → EReal) (br' : (⟨2, ![1, d]⟩ : Shape).Idx → EReal) (p : Fin n) (p' : Fin n') (q : Fin d)
    (ha : a (ix2 p q) = a' (ix2 p' q)) (hh : h (ix2 p q) = h' (ix2 p' q))
    (hd : dc (ix2 p (0 : Fin 1)) = dc' (ix2 p' (0 : Fin 1))) (hb : br (ix2 (0 : Fin 1) q) = br' (ix2 (0 : Fin 1) q)) :
    Cert.Model.comb a h dc br (ix2 p q) = Cert.Model.comb a' h' dc' br' (ix2 p' q) := by
  show a (ix2 p q) + dc (ix2 p (0 : Fin 1)) * h (ix2 p q) + br (ix2 (0 : Fin 1) q)
    = a' (ix2 p' q) + dc' (ix2 p' (0 : Fin 1)) * h' (ix2 p' q) + br' (ix2 (0 : Fin 1) q)
  rw [ha, hh, hd, hb]

/-- A row's lane maximum from the word of -∞, as a column repeated along the row, is the model's row maximum. -/
theorem rowMax_block (v : FVec Ideal ⟨2, ![n, d]⟩ .f32)
    (hr : (⟨2, ![n, d]⟩ : Shape).Reduces [1] (⟨1, ![n]⟩ : Shape)) (hφ : FKind.Formats FTy.f32)
    (hacc : (0xFF800000#32 : BitVec FTy.f32.bits) = FKind.maximumf.neutral FTy.f32 hφ)
    (hc : (⟨1, ![n]⟩ : Shape).ShapeCasts ⟨2, ![n, 1]⟩) (hb : (⟨2, ![n, 1]⟩ : Shape).Broadcasts ⟨2, ![n, d]⟩) (p : Fin n) (c : Fin d) :
    broadcastTo ⟨2, ![n, d]⟩ (shapeCast ⟨2, ![n, 1]⟩ (multiReduction .maximumf [1] ⟨1, ![n]⟩ v 0xFF800000#32 hr hφ hacc) hc) hb (ix2 p c)
      = Cert.Model.rowMax v p := by
  rw [Cert.LibRows.broadcastTo_a1_ab_apply, Cert.LibRows.shapeCast_a_a1_apply, Cert.LibRows.laneMax_apply]
  rfl

/-- The vector unit's log-softmax of a block is the model's. -/
theorem logSoftmax_block (v : FVec Ideal ⟨2, ![n, d]⟩ .f32)
    (hr : (⟨2, ![n, d]⟩ : Shape).Reduces [1] (⟨1, ![n]⟩ : Shape)) (hφ hφ' : FKind.Formats FTy.f32)
    (hmax : (0xFF800000#32 : BitVec FTy.f32.bits) = FKind.maximumf.neutral FTy.f32 hφ)
    (hadd : (0x00000000#32 : BitVec FTy.f32.bits) = FKind.add.neutral FTy.f32 hφ')
    (hc : (⟨1, ![n]⟩ : Shape).ShapeCasts ⟨2, ![n, 1]⟩) (hb : (⟨2, ![n, 1]⟩ : Shape).Broadcasts ⟨2, ![n, d]⟩) :
    subf (subf v (broadcastTo ⟨2, ![n, d]⟩ (shapeCast ⟨2, ![n, 1]⟩ (multiReduction .maximumf [1] ⟨1, ![n]⟩ v 0xFF800000#32 hr hφ hmax) hc) hb))
      (broadcastTo ⟨2, ![n, d]⟩ (log (shapeCast ⟨2, ![n, 1]⟩ (multiReduction .add [1] ⟨1, ![n]⟩
        (exp (subf v (broadcastTo ⟨2, ![n, d]⟩ (shapeCast ⟨2, ![n, 1]⟩ (multiReduction .maximumf [1] ⟨1, ![n]⟩ v 0xFF800000#32 hr hφ hmax) hc) hb)))
        0x00000000#32 hr hφ' hadd) hc)) hb)
      = Cert.Model.logSoftmax v := by
  funext i
  obtain ⟨p, q, rfl⟩ : ∃ (p : Fin n) (q : Fin d), i = ix2 p q := ⟨i 0, i 1, eq_ix2 i⟩
  show (v (ix2 p q) - broadcastTo ⟨2, ![n, d]⟩ _ hb (ix2 p q)) - broadcastTo ⟨2, ![n, d]⟩ _ hb (ix2 p q) = _
  rw [rowMax_block, Cert.LibRows.broadcastTo_a1_ab_apply]
  show _ - Ideal.log (shapeCast ⟨2, ![n, 1]⟩ _ hc (ix2 p (0 : Fin 1))) = _
  rw [Cert.LibRows.shapeCast_a_a1_apply, Cert.LibRows.laneSum_apply]
  show _ = (v (ix2 p q) - Cert.Model.rowMax v p) - Ideal.log (∑ c : Fin d, Ideal.exp (v (ix2 p c) - Cert.Model.rowMax v p))
  congr 2
  refine Finset.sum_congr rfl fun c _ => ?_
  show Ideal.exp (v (ix2 p c) - broadcastTo ⟨2, ![n, d]⟩ _ hb (ix2 p c)) = _
  rw [rowMax_block]

/-- The model's log-softmax at (p, q) depends on row p only: two arrays that agree along a row of each agree there. -/
theorem logSoftmax_row {n' : ℕ} (v : (⟨2, ![n, d]⟩ : Shape).Idx → EReal) (v' : (⟨2, ![n', d]⟩ : Shape).Idx → EReal)
    (p : Fin n) (p' : Fin n') (q : Fin d) (hrow : ∀ c : Fin d, v (ix2 p c) = v' (ix2 p' c)) :
    Cert.Model.logSoftmax v (ix2 p q) = Cert.Model.logSoftmax v' (ix2 p' q) := by
  have hm : Cert.Model.rowMax v p = Cert.Model.rowMax v' p' := by
    unfold Cert.Model.rowMax
    exact congrArg (fun f => Finset.fold max _ f (Finset.univ : Finset (Fin d))) (funext hrow)
  show (v (ix2 p q) - Cert.Model.rowMax v p) - Ideal.log (∑ c : Fin d, Ideal.exp (v (ix2 p c) - Cert.Model.rowMax v p))
    = (v' (ix2 p' q) - Cert.Model.rowMax v' p') - Ideal.log (∑ c : Fin d, Ideal.exp (v' (ix2 p' c) - Cert.Model.rowMax v' p'))
  rw [hm, hrow q]
  congr 2
  exact Finset.sum_congr rfl fun c _ => by rw [hrow c]

end Cert.LibCombine

end
-- ==== Proof.RegionComb.lean ====
/-
  The two combination regions, as whole arrays.

  Each walks 20 row blocks of 5000 rows over four input arrays: the aggregate and the features (blocks of 5000 full
  rows), the column of δ² (a block of 5000 entries) and the bias row (the whole row at every point). On a block the
  first body forms aggregate + δ² · feature + bias and takes the maximum with zero; the second forms the same
  combination and then the row-wise log-softmax. A block holds whole rows, so a row's maximum and sum over the block
  are the row's maximum and sum over the array, and what point t writes back is block t of the model's stage applied to
  the four arrays. The blocks cover the array.
-/
import proofs.«117384_j51410758533499_1_alg».proof.Proof.Gen.KernelIdeal.Frame
import proofs.«117384_j51410758533499_1_alg».proof.Proof.Model
import proofs.«117384_j51410758533499_1_alg».proof.Proof.LibCombine
import proofs.«117384_j51410758533499_1_alg».proof.Proof.RegionMm
set_option maxRecDepth 16384

noncomputable section

open scoped BigOperators

namespace Cert.KernelIdeal.RegionComb

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

open Cert.KernelIdeal.RegionMm (zero_offsets)

/-! ## The first combination (64 columns), with the ramp -/

/-- The body on a block: the model's combination of the block's four pieces, then the ramp. -/
theorem body1_eq (x0 x4 : Vec Ideal S5000x64 .f32) (x2 : Vec Ideal S5000x1 .f32) (x9 : Vec Ideal S1x64 .f32) :
    k1_pay1 x0 x2 x4 x9 = Cert.Model.ramp (Cert.Model.comb x0 x4 x2 x9) := by
  unfold k1_pay1
  simp only [shapeCast_self]
  rw [Cert.LibCombine.comb_block]
  rfl

/-- Where block t of each window sits: the row blocks move with t, the bias row stays. -/
theorem blocks1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Entry (p, q) of block t is entry (5000·t + p, q) of the array. -/
theorem emb1 (t : Fin cfg1.N) (p : Fin 5000) (q : Fin 64) (hP : t.val * 5000 + p.val < 100000) :
    ((cfg1.win 4).blk t).view.emb (ix2 p q) = ix2 (⟨t.val * 5000 + p.val, hP⟩ : Fin 100000) q := by
  obtain ⟨-, -, -, -, -, -, -, -, e8, e9⟩ := blocks1 t
  funext a; apply Fin.ext
  match a with
  | ⟨0, _⟩ => show win1_4.index t (0 : Fin 2) * 5000 + 1 * p.val = t.val * 5000 + p.val; omega
  | ⟨1, _⟩ => show win1_4.index t (1 : Fin 2) * 64 + 1 * q.val = q.val; omega

/-- The combination of the four blocks at (p, q) is the combination of the four arrays at (5000·t + p, q). -/
theorem comb_at1 (c : Dev nD) (t : Fin cfg1.N) (p : Fin 5000) (q : Fin 64) (hP : t.val * 5000 + p.val < 100000) :
    Cert.Model.comb (iblk1 V c 0 t) (iblk1 V c 1 t) (iblk1 V c 2 t) (iblk1 V c 3 t) (ix2 p q)
      = Cert.Model.comb (V c main_v39) (V c main_v4) (V c main_v42) (V c main_v41) (ix2 (⟨t.val * 5000 + p.val, hP⟩ : Fin 100000) q) := by
  obtain ⟨e0, e1, e2, e3, e4, e5, e6, e7, e8, e9⟩ := blocks1 t
  have h0 : iblk1 V c 0 t (ix2 p q) = V c main_v39 (ix2 (⟨t.val * 5000 + p.val, hP⟩ : Fin 100000) q) := by
    show V c main_v39 (((cfg1.win 0).blk t).view.emb (ix2 p q)) = _
    refine congrArg (V c main_v39) (funext fun a => Fin.ext ?_)
    match a with
    | ⟨0, _⟩ => show win1_0.index t (0 : Fin 2) * 5000 + 1 * p.val = t.val * 5000 + p.val; omega
    | ⟨1, _⟩ => show win1_0.index t (1 : Fin 2) * 64 + 1 * q.val = q.val; omega
  have h1 : iblk1 V c 1 t (ix2 p q) = V c main_v4 (ix2 (⟨t.val * 5000 + p.val, hP⟩ : Fin 100000) q) := by
    show V c main_v4 (((cfg1.win 1).blk t).view.emb (ix2 p q)) = _
    refine congrArg (V c main_v4) (funext fun a => Fin.ext ?_)
    match a with
    | ⟨0, _⟩ => show win1_1.index t (0 : Fin 2) * 5000 + 1 * p.val = t.val * 5000 + p.val; omega
    | ⟨1, _⟩ => show win1_1.index t (1 : Fin 2) * 64 + 1 * q.val = q.val; omega
  have h2 : iblk1 V c 2 t (ix2 p (0 : Fin 1)) = V c main_v42 (ix2 (⟨t.val * 5000 + p.val, hP⟩ : Fin 100000) (0 : Fin 1)) := by
    show V c main_v42 (((cfg1.win 2).blk t).view.emb (ix2 p (0 : Fin 1))) = _
    refine congrArg (V c main_v42) (funext fun a => Fin.ext ?_)
    match a with
    | ⟨0, _⟩ => show win1_2.index t (0 : Fin 2) * 5000 + 1 * p.val = t.val * 5000 + p.val; omega
    | ⟨1, _⟩ => show win1_2.index t (1 : Fin 2) * 1 + 1 * 0 = 0; omega
  have h3 : iblk1 V c 3 t (ix2 (0 : Fin 1) q) = V c main_v41 (ix2 (0 : Fin 1) q) := by
    show V c main_v41 (((cfg1.win 3).blk t).view.emb (ix2 (0 : Fin 1) q)) = _
    refine congrArg (V c main_v41) (funext fun a => Fin.ext ?_)
    match a with
    | ⟨0, _⟩ => show win1_3.index t (0 : Fin 2) * 1 + 1 * 0 = 0; omega
    | ⟨1, _⟩ => show win1_3.index t (1 : Fin 2) * 64 + 1 * q.val = q.val; omega
  exact Cert.LibCombine.comb_congr _ _ _ _ _ _ _ _ p (⟨t.val * 5000 + p.val, hP⟩ : Fin 100000) q h0 h1 h2 h3

theorem flushed1 (c : Dev nD) (t : Fin cfg1.N) :
    (dat1 (F := Ideal) V c).flushed 4 t = ((cfg1.win 4).blk t).view.read (Elt Ideal)
      (Cert.Model.ramp (Cert.Model.comb (V c main_v39) (V c main_v4) (V c main_v42) (V c main_v41))) := by
  show (cfg1.win 4).cut (grid1.coords t) ((dat1 V c).after 4 t) = _
  rw [after1_4]
  unfold out1_4
  rw [View.canon_unit_zero zero_offsets]
  simp only [View.ld_unit_zero (S := S5000x64) zero_offsets, View.ld_unit_zero (S := S5000x1) zero_offsets, View.ld_unit_zero (S := S1x64) zero_offsets]
  rw [body1_eq]
  funext j
  obtain ⟨p, q, rfl⟩ : ∃ (p : Fin 5000) (q : Fin 64), j = ix2 p q := ⟨j 0, j 1, eq_ix2 (n0 := 5000) (n1 := 64) j⟩
  have hP : t.val * 5000 + p.val < 100000 := by have := t.isLt; have := p.isLt; have : cfg1.N = 20 := N_1; omega
  show Cert.Model.ramp (Cert.Model.comb (iblk1 V c 0 t) (iblk1 V c 1 t) (iblk1 V c 2 t) (iblk1 V c 3 t)) (ix2 p q)
    = Cert.Model.ramp (Cert.Model.comb (V c main_v39) (V c main_v4) (V c main_v42) (V c main_v41)) (((cfg1.win 4).blk t).view.emb (ix2 p q))
  rw [emb1 t p q hP]
  show max _ _ = max _ _
  rw [comb_at1 V c t p q hP]

theorem mem_block1 (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v43).slice (win1_4.rect t)).set ↔ _
  rw [View.set_slice_whole, Rect.mem_set_unit]
  exact Iff.rfl

theorem cover1 (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  refine ⟨⟨(i 0).val / 5000, by show (i 0).val / 5000 < 20; omega⟩, flush1_4 _, ?_⟩
  rw [mem_block1]
  obtain ⟨-, -, -, -, -, -, -, -, e8, e9⟩ := blocks1 ⟨(i 0).val / 5000, by show (i 0).val / 5000 < 20; omega⟩
  intro a
  match a with
  | ⟨0, _⟩ => show win1_4.index _ (0 : Fin 2) * 5000 ≤ (i 0).val ∧ (i 0).val < win1_4.index _ (0 : Fin 2) * 5000 + 5000; rw [e8]; show (i 0).val / 5000 * 5000 ≤ _ ∧ _ < (i 0).val / 5000 * 5000 + 5000; omega
  | ⟨1, _⟩ => show win1_4.index _ (1 : Fin 2) * 64 ≤ (i 1).val ∧ (i 1).val < win1_4.index _ (1 : Fin 2) * 64 + 64; rw [e9]; omega

/-- The first combination region leaves its output array at the ramp of the combination of its four input arrays. -/
theorem region1 (c : Dev nD) : (dat1 (F := Ideal) V c).arrAt 4 cfg1.N
    = Cert.Model.ramp (Cert.Model.comb (V c main_v39) (V c main_v4) (V c main_v42) (V c main_v41)) :=
  (dat1 (F := Ideal) V c).arrAt_eq_of_cover 4 _ (fun t _ => flushed1 V c t) cover1

/-! ## The second combination (40 columns), with the row-wise log-softmax -/

/-- The body on a block: the model's log-softmax of the model's combination of the block's four pieces. -/
theorem body3_eq (x0 x4 : Vec Ideal S5000x40 .f32) (x2 : Vec Ideal S5000x1 .f32) (x9 : Vec Ideal S1x40 .f32) :
    k3_pay1 x0 x2 x4 x9 = Cert.Model.logSoftmax (Cert.Model.comb x0 x4 x2 x9) := by
  unfold k3_pay1
  simp only [shapeCast_self]
  rw [Cert.LibCombine.comb_block]
  exact Cert.LibCombine.logSoftmax_block _ _ _ _ _ _ _ _

theorem blocks3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

theorem emb3 (t : Fin cfg3.N) (p : Fin 5000) (q : Fin 40) (hP : t.val * 5000 + p.val < 100000) :
    ((cfg3.win 4).blk t).view.emb (ix2 p q) = ix2 (⟨t.val * 5000 + p.val, hP⟩ : Fin 100000) q := by
  obtain ⟨-, -, -, -, -, -, -, -, e8, e9⟩ := blocks3 t
  funext a; apply Fin.ext
  match a with
  | ⟨0, _⟩ => show win3_4.index t (0 : Fin 2) * 5000 + 1 * p.val = t.val * 5000 + p.val; omega
  | ⟨1, _⟩ => show win3_4.index t (1 : Fin 2) * 40 + 1 * q.val = q.val; omega

theorem comb_at3 (c : Dev nD) (t : Fin cfg3.N) (p : Fin 5000) (q : Fin 40) (hP : t.val * 5000 + p.val < 100000) :
    Cert.Model.comb (iblk3 V c 0 t) (iblk3 V c 1 t) (iblk3 V c 2 t) (iblk3 V c 3 t) (ix2 p q)
      = Cert.Model.comb (V c main_v80) (V c main_v45) (V c main_v83) (V c main_v82) (ix2 (⟨t.val * 5000 + p.val, hP⟩ : Fin 100000) q) := by
  obtain ⟨e0, e1, e2, e3, e4, e5, e6, e7, e8, e9⟩ := blocks3 t
  have h0 : iblk3 V c 0 t (ix2 p q) = V c main_v80 (ix2 (⟨t.val * 5000 + p.val, hP⟩ : Fin 100000) q) := by
    show V c main_v80 (((cfg3.win 0).blk t).view.emb (ix2 p q)) = _
    refine congrArg (V c main_v80) (funext fun a => Fin.ext ?_)
    match a with
    | ⟨0, _⟩ => show win3_0.index t (0 : Fin 2) * 5000 + 1 * p.val = t.val * 5000 + p.val; omega
    | ⟨1, _⟩ => show win3_0.index t (1 : Fin 2) * 40 + 1 * q.val = q.val; omega
  have h1 : iblk3 V c 1 t (ix2 p q) = V c main_v45 (ix2 (⟨t.val * 5000 + p.val, hP⟩ : Fin 100000) q) := by
    show V c main_v45 (((cfg3.win 1).blk t).view.emb (ix2 p q)) = _
    refine congrArg (V c main_v45) (funext fun a => Fin.ext ?_)
    match a with
    | ⟨0, _⟩ => show win3_1.index t (0 : Fin 2) * 5000 + 1 * p.val = t.val * 5000 + p.val; omega
    | ⟨1, _⟩ => show win3_1.index t (1 : Fin 2) * 40 + 1 * q.val = q.val; omega
  have h2 : iblk3 V c 2 t (ix2 p (0 : Fin 1)) = V c main_v83 (ix2 (⟨t.val * 5000 + p.val, hP⟩ : Fin 100000) (0 : Fin 1)) := by
    show V c main_v83 (((cfg3.win 2).blk t).view.emb (ix2 p (0 : Fin 1))) = _
    refine congrArg (V c main_v83) (funext fun a => Fin.ext ?_)
    match a with
    | ⟨0, _⟩ => show win3_2.index t (0 : Fin 2) * 5000 + 1 * p.val = t.val * 5000 + p.val; omega
    | ⟨1, _⟩ => show win3_2.index t (1 : Fin 2) * 1 + 1 * 0 = 0; omega
  have h3 : iblk3 V c 3 t (ix2 (0 : Fin 1) q) = V c main_v82 (ix2 (0 : Fin 1) q) := by
    show V c main_v82 (((cfg3.win 3).blk t).view.emb (ix2 (0 : Fin 1) q)) = _
    refine congrArg (V c main_v82) (funext fun a => Fin.ext ?_)
    match a with
    | ⟨0, _⟩ => show win3_3.index t (0 : Fin 2) * 1 + 1 * 0 = 0; omega
    | ⟨1, _⟩ => show win3_3.index t (1 : Fin 2) * 40 + 1 * q.val = q.val; omega
  exact Cert.LibCombine.comb_congr _ _ _ _ _ _ _ _ p (⟨t.val * 5000 + p.val, hP⟩ : Fin 100000) q h0 h1 h2 h3

theorem flushed3 (c : Dev nD) (t : Fin cfg3.N) :
    (dat3 (F := Ideal) V c).flushed 4 t = ((cfg3.win 4).blk t).view.read (Elt Ideal)
      (Cert.Model.logSoftmax (Cert.Model.comb (V c main_v80) (V c main_v45) (V c main_v83) (V c main_v82))) := by
  show (cfg3.win 4).cut (grid3.coords t) ((dat3 V c).after 4 t) = _
  rw [after3_4]
  unfold out3_4
  rw [View.canon_unit_zero zero_offsets]
  simp only [View.ld_unit_zero (S := S5000x40) zero_offsets, View.ld_unit_zero (S := S5000x1) zero_offsets, View.ld_unit_zero (S := S1x40) zero_offsets]
  rw [body3_eq]
  funext j
  obtain ⟨p, q, rfl⟩ : ∃ (p : Fin 5000) (q : Fin 40), j = ix2 p q := ⟨j 0, j 1, eq_ix2 (n0 := 5000) (n1 := 40) j⟩
  have hP : t.val * 5000 + p.val < 100000 := by have := t.isLt; have := p.isLt; have : cfg3.N = 20 := N_3; omega
  show Cert.Model.logSoftmax (Cert.Model.comb (iblk3 V c 0 t) (iblk3 V c 1 t) (iblk3 V c 2 t) (iblk3 V c 3 t)) (ix2 p q)
    = Cert.Model.logSoftmax (Cert.Model.comb (V c main_v80) (V c main_v45) (V c main_v83) (V c main_v82)) (((cfg3.win 4).blk t).view.emb (ix2 p q))
  rw [emb3 t p q hP]
  exact Cert.LibCombine.logSoftmax_row _ _ p (⟨t.val * 5000 + p.val, hP⟩ : Fin 100000) q (fun k => comb_at3 V c t p k hP)

theorem mem_block3 (t : Fin cfg3.N) (i : S100000x40.Idx) :
    i ∈ ((cfg3.win 4).blk t).view.set ↔ ∀ a : Fin 2, win3_4.index t a * S5000x40.size a ≤ (i a).val ∧ (i a).val < win3_4.index t a * S5000x40.size a + S5000x40.size a := by
  show i ∈ ((View.whole main_v84).slice (win3_4.rect t)).set ↔ _
  rw [View.set_slice_whole, Rect.mem_set_unit]
  exact Iff.rfl

theorem cover3 (i : S100000x40.Idx) : ∃ t : Fin cfg3.N, (cfg3.win 4).flush t = true ∧ i ∈ ((cfg3.win 4).blk t).view.set := by
  have hi0 : (i 0).val < 100000 := (i 0).isLt
  have hi1 : (i 1).val < 40 := (i 1).isLt
  refine ⟨⟨(i 0).val / 5000, by show (i 0).val / 5000 < 20; omega⟩, flush3_4 _, ?_⟩
  rw [mem_block3]
  obtain ⟨-, -, -, -, -, -, -, -, e8, e9⟩ := blocks3 ⟨(i 0).val / 5000, by show (i 0).val / 5000 < 20; omega⟩
  intro a
  match a with
  | ⟨0, _⟩ => show win3_4.index _ (0 : Fin 2) * 5000 ≤ (i 0).val ∧ (i 0).val < win3_4.index _ (0 : Fin 2) * 5000 + 5000; rw [e8]; show (i 0).val / 5000 * 5000 ≤ _ ∧ _ < (i 0).val / 5000 * 5000 + 5000; omega
  | ⟨1, _⟩ => show win3_4.index _ (1 : Fin 2) * 40 ≤ (i 1).val ∧ (i 1).val < win3_4.index _ (1 : Fin 2) * 40 + 40; rw [e9]; omega

/-- The second combination region leaves its output array at the log-softmax of the combination of its four input arrays. -/
theorem region3 (c : Dev nD) : (dat3 (F := Ideal) V c).arrAt 4 cfg3.N
    = Cert.Model.logSoftmax (Cert.Model.comb (V c main_v80) (V c main_v45) (V c main_v83) (V c main_v82)) :=
  (dat3 (F := Ideal) V c).arrAt_eq_of_cover 4 _ (fun t _ => flushed3 V c t) cover3

end Cert.KernelIdeal.RegionComb

end
-- ==== Proof.KernelValue.lean ====
/-
  The idealized kernel's result array as the model's network of the seven arguments.

  The program's buffer contents are followed through its eight segments. A host stretch is read off its operations: the
  edge stages it computes are the model's (sources and targets out of the edge table, δ, the edge coefficients, the
  aggregates), the [N] vector of δ² reshaped to a column is the model's column, a bias reshaped to a row the model's row,
  and a buffer the stretch does not write keeps its contents. A region replaces its output array by the model's dense
  stage of its input arrays and leaves every other buffer alone. Composing the eight steps from the launch memory gives
  the model's output at the result buffer.
-/
import proofs.«117384_j51410758533499_1_alg».proof.Proof.Gen.KernelIdeal.Frame
import proofs.«117384_j51410758533499_1_alg».proof.Proof.Model
import proofs.«117384_j51410758533499_1_alg».proof.Proof.LibRows
import proofs.«117384_j51410758533499_1_alg».proof.Proof.RegionMm
import proofs.«117384_j51410758533499_1_alg».proof.Proof.RegionComb
import Idealize.ShloMosaic.Lib.StableHlo.Run

set_option maxRecDepth 16384

noncomputable section

namespace Cert.KernelIdeal.KernelValue

open Cert.KernelIdeal Cert.KernelIdeal.Gen
open Idealize.ShloMosaic Idealize.ShloMosaic.TcCoe Idealize.ShloMosaic.ValueIdx Idealize.ShloMosaic.StableHlo

/-! ## A vector reshaped to a column, a vector reshaped to a row -/

/-- An [n] vector reshaped to [n, 1] is the model's column of it. -/
theorem reshape_col {n : ℕ} (x : (⟨1, ![n]⟩ : Shape).Idx → EReal) (h : (⟨1, ![n]⟩ : Shape).ShapeCasts ⟨2, ![n, 1]⟩) :
    shapeCast ⟨2, ![n, 1]⟩ x h = Cert.Model.colOf x := by
  funext i
  obtain ⟨r, u, rfl⟩ : ∃ (r : Fin n) (u : Fin 1), i = ix2 r u := ⟨i 0, i 1, eq_ix2 i⟩
  exact Cert.LibRows.shapeCast_a_a1_apply x h r u

/-- A [d] vector reshaped to [1, d] is the model's row of it. -/
theorem reshape_row {d : ℕ} (x : (⟨1, ![d]⟩ : Shape).Idx → EReal) (h : (⟨1, ![d]⟩ : Shape).ShapeCasts ⟨2, ![1, d]⟩) :
    shapeCast ⟨2, ![1, d]⟩ x h = Cert.Model.rowOf x := by
  funext i
  obtain ⟨u, q, rfl⟩ : ∃ (u : Fin 1) (q : Fin d), i = ix2 u q := ⟨i 0, i 1, eq_ix2 i⟩
  refine shapeCast_apply x h _ (ix1 q) ?_
  have hu : u.val = 0 := by omega
  rw [Shape.rowMajor_val_two, Shape.rowMajor_val_one]
  show q.val = u.val * d + q.val
  rw [hu, Nat.zero_mul, Nat.zero_add]

/-! ## The host stretches, from any entry contents -/

section Stretches

variable (W : Valuation τ sig (Elt Ideal))

theorem s0_v1 : StableHlo.after (hostOps0 (F := Ideal)) W (Proc.devRef .tc main_v1) = Cert.Model.src (W (Proc.devRef .tc main_arg1)) := by
  after_results
  rfl

theorem s0_v3 : StableHlo.after (hostOps0 (F := Ideal)) W (Proc.devRef .tc main_v3) = Cert.Model.dst (W (Proc.devRef .tc main_arg1)) := by
  after_results
  rfl

/-- The first layer's aggregate. -/
theorem s1_v39 : StableHlo.after (hostOps1 (F := Ideal)) W (Proc.devRef .tc main_v39)
    = Cert.Model.agg64 (W (Proc.devRef .tc main_v4)) (W (Proc.devRef .tc main_v1)) (W (Proc.devRef .tc main_v3))
        (Cert.Model.coef (W (Proc.devRef .tc main_v1)) (W (Proc.devRef .tc main_v3)) (W (Proc.devRef .tc main_arg2)) (Cert.Model.dinv (W (Proc.devRef .tc main_v3)) (W (Proc.devRef .tc main_arg2)))) := by
  after_results_simp
  rfl

/-- The first layer's column of δ². -/
theorem s1_v42 : StableHlo.after (hostOps1 (F := Ideal)) W (Proc.devRef .tc main_v42)
    = Cert.Model.colOf (mulf (F := Ideal) (s := Cert.ReferenceIdeal.S100000) (φ := .f32)
        (Cert.Model.dinv (W (Proc.devRef .tc main_v3)) (W (Proc.devRef .tc main_arg2))) (Cert.Model.dinv (W (Proc.devRef .tc main_v3)) (W (Proc.devRef .tc main_arg2)))) := by
  after_results_simp
  exact reshape_col _ _

/-- The first layer's bias as a row. -/
theorem s1_v41 : StableHlo.after (hostOps1 (F := Ideal)) W (Proc.devRef .tc main_v41) = Cert.Model.rowOf (W (Proc.devRef .tc main_arg4)) := by
  after_results_simp
  exact reshape_row _ _

theorem s2_v44 : StableHlo.after (hostOps2 (F := Ideal)) W (Proc.devRef .tc main_v44) = Cert.Model.ones := by
  after_results
  rfl

/-- The second layer's aggregate. -/
theorem s3_v80 : StableHlo.after (hostOps3 (F := Ideal)) W (Proc.devRef .tc main_v80)
    = Cert.Model.agg40 (W (Proc.devRef .tc main_v45)) (W (Proc.devRef .tc main_v1)) (W (Proc.devRef .tc main_v3))
        (Cert.Model.coef (W (Proc.devRef .tc main_v1)) (W (Proc.devRef .tc main_v3)) (W (Proc.devRef .tc main_v44)) (Cert.Model.dinv (W (Proc.devRef .tc main_v3)) (W (Proc.devRef .tc main_v44)))) := by
  after_results_simp
  rfl

/-- The second layer's column of δ². -/
theorem s3_v83 : StableHlo.after (hostOps3 (F := Ideal)) W (Proc.devRef .tc main_v83)
    = Cert.Model.colOf (mulf (F := Ideal) (s := Cert.ReferenceIdeal.S100000) (φ := .f32)
        (Cert.Model.dinv (W (Proc.devRef .tc main_v3)) (W (Proc.devRef .tc main_v44))) (Cert.Model.dinv (W (Proc.devRef .tc main_v3)) (W (Proc.devRef .tc main_v44)))) := by
  after_results_simp
  exact reshape_col _ _

/-- The second layer's bias as a row. -/
theorem s3_v82 : StableHlo.after (hostOps3 (F := Ideal)) W (Proc.devRef .tc main_v82) = Cert.Model.rowOf (W (Proc.devRef .tc main_arg6)) := by
  after_results_simp
  exact reshape_row _ _

end Stretches

/-! ## The eight boundaries, from the launch memory -/

section Chain

variable (m : (ℓ : Loc nD τ sig) → Buf (Elt Ideal) ℓ) (ρ : Dev nD → PrngReg) (c : Dev nD)

/-! ### After the first stretch: the sources and targets; the arguments as launched -/

theorem w1_v1 : W1 (F := Ideal) m ρ c (Proc.devRef .tc main_v1) = (Cert.Model.src (m ((c.tc : Thread nD τ).loc main_arg1))) := s0_v1 (W0 m ρ c)
theorem w1_v3 : W1 (F := Ideal) m ρ c (Proc.devRef .tc main_v3) = (Cert.Model.dst (m ((c.tc : Thread nD τ).loc main_arg1))) := s0_v3 (W0 m ρ c)
theorem w1_arg0 : W1 (F := Ideal) m ρ c (Proc.devRef .tc main_arg0) = (m ((c.tc : Thread nD τ).loc main_arg0)) :=
  (StableHlo.after_of_forall_not_mem (b := Proc.devRef .tc main_arg0) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans rfl
theorem w1_arg2 : W1 (F := Ideal) m ρ c (Proc.devRef .tc main_arg2) = (m ((c.tc : Thread nD τ).loc main_arg2)) :=
  (StableHlo.after_of_forall_not_mem (b := Proc.devRef .tc main_arg2) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans rfl
theorem w1_arg3 : W1 (F := Ideal) m ρ c (Proc.devRef .tc main_arg3) = (m ((c.tc : Thread nD τ).loc main_arg3)) :=
  (StableHlo.after_of_forall_not_mem (b := Proc.devRef .tc main_arg3) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans rfl
theorem w1_arg4 : W1 (F := Ideal) m ρ c (Proc.devRef .tc main_arg4) = (m ((c.tc : Thread nD τ).loc main_arg4)) :=
  (StableHlo.after_of_forall_not_mem (b := Proc.devRef .tc main_arg4) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans rfl
theorem w1_arg5 : W1 (F := Ideal) m ρ c (Proc.devRef .tc main_arg5) = (m ((c.tc : Thread nD τ).loc main_arg5)) :=
  (StableHlo.after_of_forall_not_mem (b := Proc.devRef .tc main_arg5) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans rfl
theorem w1_arg6 : W1 (F := Ideal) m ρ c (Proc.devRef .tc main_arg6) = (m ((c.tc : Thread nD τ).loc main_arg6)) :=
  (StableHlo.after_of_forall_not_mem (b := Proc.devRef .tc main_arg6) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans rfl

/-! ### After the first product -/

theorem w2_v4 : W2 (F := Ideal) m ρ c (Proc.devRef .tc main_v4) = (Cert.Model.mm (m ((c.tc : Thread nD τ).loc main_arg0)) (m ((c.tc : Thread nD τ).loc main_arg3))) := by
  refine (W2_arr m ρ c 2).trans ((Cert.KernelIdeal.RegionMm.region0 (V1 m ρ) c).trans ?_)
  rw [show V1 m ρ c main_arg0 = _ from w1_arg0 m ρ c, show V1 m ρ c main_arg3 = _ from w1_arg3 m ρ c]
theorem w2_v1 : W2 (F := Ideal) m ρ c (Proc.devRef .tc main_v1) = (Cert.Model.src (m ((c.tc : Thread nD τ).loc main_arg1))) :=
  (W2_of_ne m ρ c main_v1 (by decide)).trans (w1_v1 m ρ c)
theorem w2_v3 : W2 (F := Ideal) m ρ c (Proc.devRef .tc main_v3) = (Cert.Model.dst (m ((c.tc : Thread nD τ).loc main_arg1))) :=
  (W2_of_ne m ρ c main_v3 (by decide)).trans (w1_v3 m ρ c)
theorem w2_arg2 : W2 (F := Ideal) m ρ c (Proc.devRef .tc main_arg2) = (m ((c.tc : Thread nD τ).loc main_arg2)) :=
  (W2_of_ne m ρ c main_arg2 (by decide)).trans (w1_arg2 m ρ c)
theorem w2_arg4 : W2 (F := Ideal) m ρ c (Proc.devRef .tc main_arg4) = (m ((c.tc : Thread nD τ).loc main_arg4)) :=
  (W2_of_ne m ρ c main_arg4 (by decide)).trans (w1_arg4 m ρ c)
theorem w2_arg5 : W2 (F := Ideal) m ρ c (Proc.devRef .tc main_arg5) = (m ((c.tc : Thread nD τ).loc main_arg5)) :=
  (W2_of_ne m ρ c main_arg5 (by decide)).trans (w1_arg5 m ρ c)
theorem w2_arg6 : W2 (F := Ideal) m ρ c (Proc.devRef .tc main_arg6) = (m ((c.tc : Thread nD τ).loc main_arg6)) :=
  (W2_of_ne m ρ c main_arg6 (by decide)).trans (w1_arg6 m ρ c)

/-! ### After the second stretch: the first layer's aggregate, column and row -/

theorem w3_v39 : W3 (F := Ideal) m ρ c (Proc.devRef .tc main_v39) = (Cert.Model.agg64 (Cert.Model.mm (m ((c.tc : Thread nD τ).loc main_arg0)) (m ((c.tc : Thread nD τ).loc main_arg3))) (Cert.Model.src (m ((c.tc : Thread nD τ).loc main_arg1))) (Cert.Model.dst (m ((c.tc : Thread nD τ).loc main_arg1))) (Cert.Model.coef (Cert.Model.src (m ((c.tc : Thread nD τ).loc main_arg1))) (Cert.Model.dst (m ((c.tc : Thread nD τ).loc main_arg1))) (m ((c.tc : Thread nD τ).loc main_arg2)) (Cert.Model.dinv (Cert.Model.dst (m ((c.tc : Thread nD τ).loc main_arg1))) (m ((c.tc : Thread nD τ).loc main_arg2))))) := by
  refine (s1_v39 (W2 m ρ c)).trans ?_
  rw [w2_v4 m ρ c, w2_v1 m ρ c, w2_v3 m ρ c, w2_arg2 m ρ c]
theorem w3_v42 : W3 (F := Ideal) m ρ c (Proc.devRef .tc main_v42) = (Cert.Model.colOf (mulf (F := Ideal) (s := Cert.ReferenceIdeal.S100000) (φ := .f32) (Cert.Model.dinv (Cert.Model.dst (m ((c.tc : Thread nD τ).loc main_arg1))) (m ((c.tc : Thread nD τ).loc main_arg2))) (Cert.Model.dinv (Cert.Model.dst (m ((c.tc : Thread nD τ).loc main_arg1))) (m ((c.tc : Thread nD τ).loc main_arg2))))) := by
  refine (s1_v42 (W2 m ρ c)).trans ?_
  rw [w2_v3 m ρ c, w2_arg2 m ρ c]
theorem w3_v41 : W3 (F := Ideal) m ρ c (Proc.devRef .tc main_v41) = (Cert.Model.rowOf (m ((c.tc : Thread nD τ).loc main_arg4))) := by
  refine (s1_v41 (W2 m ρ c)).trans ?_
  rw [w2_arg4 m ρ c]
theorem w3_v4 : W3 (F := Ideal) m ρ c (Proc.devRef .tc main_v4) = (Cert.Model.mm (m ((c.tc : Thread nD τ).loc main_arg0)) (m ((c.tc : Thread nD τ).loc main_arg3))) :=
  (StableHlo.after_of_forall_not_mem (b := Proc.devRef .tc main_v4) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (w2_v4 m ρ c)
theorem w3_v1 : W3 (F := Ideal) m ρ c (Proc.devRef .tc main_v1) = (Cert.Model.src (m ((c.tc : Thread nD τ).loc main_arg1))) :=
  (StableHlo.after_of_forall_not_mem (b := Proc.devRef .tc main_v1) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (w2_v1 m ρ c)
theorem w3_v3 : W3 (F := Ideal) m ρ c (Proc.devRef .tc main_v3) = (Cert.Model.dst (m ((c.tc : Thread nD τ).loc main_arg1))) :=
  (StableHlo.after_of_forall_not_mem (b := Proc.devRef .tc main_v3) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (w2_v3 m ρ c)
theorem w3_arg5 : W3 (F := Ideal) m ρ c (Proc.devRef .tc main_arg5) = (m ((c.tc : Thread nD τ).loc main_arg5)) :=
  (StableHlo.after_of_forall_not_mem (b := Proc.devRef .tc main_arg5) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (w2_arg5 m ρ c)
theorem w3_arg6 : W3 (F := Ideal) m ρ c (Proc.devRef .tc main_arg6) = (m ((c.tc : Thread nD τ).loc main_arg6)) :=
  (StableHlo.after_of_forall_not_mem (b := Proc.devRef .tc main_arg6) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (w2_arg6 m ρ c)

/-! ### After the first combination: the hidden layer -/

theorem w4_v43 : W4 (F := Ideal) m ρ c (Proc.devRef .tc main_v43) = (Cert.Model.hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  refine (W4_arr m ρ c 4).trans ((Cert.KernelIdeal.RegionComb.region1 (V3 m ρ) c).trans ?_)
  rw [show V3 m ρ c main_v39 = _ from w3_v39 m ρ c, show V3 m ρ c main_v4 = _ from w3_v4 m ρ c,
    show V3 m ρ c main_v42 = _ from w3_v42 m ρ c, show V3 m ρ c main_v41 = _ from w3_v41 m ρ c]
  rfl
theorem w4_v1 : W4 (F := Ideal) m ρ c (Proc.devRef .tc main_v1) = (Cert.Model.src (m ((c.tc : Thread nD τ).loc main_arg1))) :=
  (W4_of_ne m ρ c main_v1 (by decide)).trans (w3_v1 m ρ c)
theorem w4_v3 : W4 (F := Ideal) m ρ c (Proc.devRef .tc main_v3) = (Cert.Model.dst (m ((c.tc : Thread nD τ).loc main_arg1))) :=
  (W4_of_ne m ρ c main_v3 (by decide)).trans (w3_v3 m ρ c)
theorem w4_arg5 : W4 (F := Ideal) m ρ c (Proc.devRef .tc main_arg5) = (m ((c.tc : Thread nD τ).loc main_arg5)) :=
  (W4_of_ne m ρ c main_arg5 (by decide)).trans (w3_arg5 m ρ c)
theorem w4_arg6 : W4 (F := Ideal) m ρ c (Proc.devRef .tc main_arg6) = (m ((c.tc : Thread nD τ).loc main_arg6)) :=
  (W4_of_ne m ρ c main_arg6 (by decide)).trans (w3_arg6 m ρ c)

/-! ### After the third stretch: the unit edge weights -/

theorem w5_v44 : W5 (F := Ideal) m ρ c (Proc.devRef .tc main_v44) = Cert.Model.ones := s2_v44 (W4 m ρ c)
theorem w5_v43 : W5 (F := Ideal) m ρ c (Proc.devRef .tc main_v43) = (Cert.Model.hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) :=
  (StableHlo.after_of_forall_not_mem (b := Proc.devRef .tc main_v43) _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (w4_v43 m ρ c)
theorem w5_v1 : W5 (F := Ideal) m ρ c (Proc.devRef .tc main_v1) = (Cert.Model.src (m ((c.tc : Thread nD τ).loc main_arg1))) :=
  (StableHlo.after_of_forall_not_mem (b := Proc.devRef .tc main_v1) _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (w4_v1 m ρ c)
theorem w5_v3 : W5 (F := Ideal) m ρ c (Proc.devRef .tc main_v3) = (Cert.Model.dst (m ((c.tc : Thread nD τ).loc main_arg1))) :=
  (StableHlo.after_of_forall_not_mem (b := Proc.devRef .tc main_v3) _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (w4_v3 m ρ c)
theorem w5_arg5 : W5 (F := Ideal) m ρ c (Proc.devRef .tc main_arg5) = (m ((c.tc : Thread nD τ).loc main_arg5)) :=
  (StableHlo.after_of_forall_not_mem (b := Proc.devRef .tc main_arg5) _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (w4_arg5 m ρ c)
theorem w5_arg6 : W5 (F := Ideal) m ρ c (Proc.devRef .tc main_arg6) = (m ((c.tc : Thread nD τ).loc main_arg6)) :=
  (StableHlo.after_of_forall_not_mem (b := Proc.devRef .tc main_arg6) _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (w4_arg6 m ρ c)

/-! ### After the second product -/

theorem w6_v45 : W6 (F := Ideal) m ρ c (Proc.devRef .tc main_v45) = (Cert.Model.mm (Cert.Model.hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5))) := by
  refine (W6_arr m ρ c 2).trans ((Cert.KernelIdeal.RegionMm.region2 (V5 m ρ) c).trans ?_)
  rw [show V5 m ρ c main_v43 = _ from w5_v43 m ρ c, show V5 m ρ c main_arg5 = _ from w5_arg5 m ρ c]
theorem w6_v44 : W6 (F := Ideal) m ρ c (Proc.devRef .tc main_v44) = Cert.Model.ones :=
  (W6_of_ne m ρ c main_v44 (by decide)).trans (w5_v44 m ρ c)
theorem w6_v1 : W6 (F := Ideal) m ρ c (Proc.devRef .tc main_v1) = (Cert.Model.src (m ((c.tc : Thread nD τ).loc main_arg1))) :=
  (W6_of_ne m ρ c main_v1 (by decide)).trans (w5_v1 m ρ c)
theorem w6_v3 : W6 (F := Ideal) m ρ c (Proc.devRef .tc main_v3) = (Cert.Model.dst (m ((c.tc : Thread nD τ).loc main_arg1))) :=
  (W6_of_ne m ρ c main_v3 (by decide)).trans (w5_v3 m ρ c)
theorem w6_arg6 : W6 (F := Ideal) m ρ c (Proc.devRef .tc main_arg6) = (m ((c.tc : Thread nD τ).loc main_arg6)) :=
  (W6_of_ne m ρ c main_arg6 (by decide)).trans (w5_arg6 m ρ c)

/-! ### After the fourth stretch: the second layer's aggregate, column and row -/

theorem w7_v80 : W7 (F := Ideal) m ρ c (Proc.devRef .tc main_v80) = (Cert.Model.agg40 (Cert.Model.mm (Cert.Model.hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5))) (Cert.Model.src (m ((c.tc : Thread nD τ).loc main_arg1))) (Cert.Model.dst (m ((c.tc : Thread nD τ).loc main_arg1))) (Cert.Model.coef (Cert.Model.src (m ((c.tc : Thread nD τ).loc main_arg1))) (Cert.Model.dst (m ((c.tc : Thread nD τ).loc main_arg1))) Cert.Model.ones (Cert.Model.dinv (Cert.Model.dst (m ((c.tc : Thread nD τ).loc main_arg1))) Cert.Model.ones))) := by
  refine (s3_v80 (W6 m ρ c)).trans ?_
  rw [w6_v45 m ρ c, w6_v1 m ρ c, w6_v3 m ρ c, w6_v44 m ρ c]
theorem w7_v83 : W7 (F := Ideal) m ρ c (Proc.devRef .tc main_v83) = (Cert.Model.colOf (mulf (F := Ideal) (s := Cert.ReferenceIdeal.S100000) (φ := .f32) (Cert.Model.dinv (Cert.Model.dst (m ((c.tc : Thread nD τ).loc main_arg1))) Cert.Model.ones) (Cert.Model.dinv (Cert.Model.dst (m ((c.tc : Thread nD τ).loc main_arg1))) Cert.Model.ones))) := by
  refine (s3_v83 (W6 m ρ c)).trans ?_
  rw [w6_v3 m ρ c, w6_v44 m ρ c]
theorem w7_v82 : W7 (F := Ideal) m ρ c (Proc.devRef .tc main_v82) = (Cert.Model.rowOf (m ((c.tc : Thread nD τ).loc main_arg6))) := by
  refine (s3_v82 (W6 m ρ c)).trans ?_
  rw [w6_arg6 m ρ c]
theorem w7_v45 : W7 (F := Ideal) m ρ c (Proc.devRef .tc main_v45) = (Cert.Model.mm (Cert.Model.hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5))) :=
  (StableHlo.after_of_forall_not_mem (b := Proc.devRef .tc main_v45) _ _ (List.forall_iff_forall_mem.mp (by
    simp only [hostOps3, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans (w6_v45 m ρ c)

/-! ### After the second combination: the network's output -/

/-- The result buffer at the last boundary holds the model's output of the seven arguments. -/
theorem result : W8 (F := Ideal) m ρ c (Proc.devRef .tc main_v84)
    = Cert.Model.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (W8_arr m ρ c 4).trans ((Cert.KernelIdeal.RegionComb.region3 (V7 m ρ) c).trans ?_)
  rw [show V7 m ρ c main_v80 = _ from w7_v80 m ρ c, show V7 m ρ c main_v45 = _ from w7_v45 m ρ c,
    show V7 m ρ c main_v83 = _ from w7_v83 m ρ c, show V7 m ρ c main_v82 = _ from w7_v82 m ρ c]
  rfl

end Chain

end Cert.KernelIdeal.KernelValue

end
-- ==== Proof.RefRun.lean ====
/-
  The reference program's run, read against the network of Model.lean.

  The program's 130 host operations are listed in order and cut at the stage boundaries into seven windows: the edge
  table's two rows and the first matrix product; the first layer's degree, coefficients and aggregate; its combination
  and ramp; the second product; the second layer's degree, coefficients and aggregate; its combination; the row-wise
  log-softmax.  Each window is read by itself, as a function of the buffers it reads at its entry, and the dense stages
  are identified index by index with Model.lean's: a dot_general with the plain dimension numbers is the sum over
  the contracted coordinate, a broadcast of a vector along a new axis reads the vector at the other coordinate, the
  maximum with a fold of max from the same value is the fold, a sum into the zero word's value is the sum.
-/
import proofs.«117384_j51410758533499_1_alg».proof.Proof.Model
import proofs.«117384_j51410758533499_1_alg».proof.Proof.LibRows
import Idealize.ShloMosaic.Lib.StableHlo.Run
import Idealize.ShloMosaic.Lib.Pipeline.Value
import Idealize.ShloMosaic.Lib.ValueIdx
import Idealize.ShloMosaic.PureOps.Ideal.Laws

noncomputable section

open scoped BigOperators

namespace Cert.RefRun

open Cert.ReferenceIdeal Cert.ReferenceIdeal.Gen Idealize.ShloMosaic Idealize.ShloMosaic.TcCoe Idealize.SL.Sem Idealize.ShloMosaic.StableHlo
open Idealize.ShloMosaic.ValueIdx

section Program

variable {F : FTy → Type} [FloatOps F]

/-- @main's 130 operations, in order (a called function's operations stand in its call's place). -/
abbrev ops : List (HloOp τ sig (Elt F)) :=
  [ unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    reshape main_v2 main_v3 rfl shapeCasts_S1x3200000_S3200000,
    binary main_arg0 main_arg3 main_v4 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)),
    nullary main_cst (constant S_ .f32 0x00000000#32),
    unary main_cst main_v5 (broadcastInDim S100000 ![] bcast_S_S100000 : (⟨S_, .f32⟩ : BufTy).Contents (Elt F) → (⟨S100000, .f32⟩ : BufTy).Contents (Elt F)),
    unary main_v3 main_v6 (broadcastInDim S3200000x1 ![0] bcast_S3200000_S3200000x1_0 : (⟨S3200000, .i32⟩ : BufTy).Contents (Elt F) → (⟨S3200000x1, .i32⟩ : BufTy).Contents (Elt F)),
    ternary main_v5 main_v6 main_arg2 main_v7 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    nullary main_cst_0 (constant S_ .f32 0x3F800000#32),
    unary main_cst_0 main_v8 (broadcastInDim S100000 ![] bcast_S_S100000 : (⟨S_, .f32⟩ : BufTy).Contents (Elt F) → (⟨S100000, .f32⟩ : BufTy).Contents (Elt F)),
    binary main_v7 main_v8 main_v9 (addf : (⟨S100000, .f32⟩ : BufTy).Contents (Elt F) → (⟨S100000, .f32⟩ : BufTy).Contents (Elt F) → (⟨S100000, .f32⟩ : BufTy).Contents (Elt F)),
    unary main_v9 main_v10 (Host.rsqrt : (⟨S100000, .f32⟩ : BufTy).Contents (Elt F) → (⟨S100000, .f32⟩ : BufTy).Contents (Elt F)),
    nullary main_c (constantI S_ 32 0#32),
    unary main_c main_v11 (broadcastInDim S3200000 ![] bcast_S_S3200000 : (⟨S_, .i32⟩ : BufTy).Contents (Elt F) → (⟨S3200000, .i32⟩ : BufTy).Contents (Elt F)),
    binary main_v1 main_v11 main_v12 (cmpi .slt : (⟨S3200000, .i32⟩ : BufTy).Contents (Elt F) → (⟨S3200000, .i32⟩ : BufTy).Contents (Elt F) → (⟨S3200000, .i1⟩ : BufTy).Contents (Elt F)),
    nullary main_c_1 (constantI S_ 32 100000#32),
    unary main_c_1 main_v13 (broadcastInDim S3200000 ![] bcast_S_S3200000 : (⟨S_, .i32⟩ : BufTy).Contents (Elt F) → (⟨S3200000, .i32⟩ : BufTy).Contents (Elt F)),
    binary main_v1 main_v13 main_v14 (addi : (⟨S3200000, .i32⟩ : BufTy).Contents (Elt F) → (⟨S3200000, .i32⟩ : BufTy).Contents (Elt F) → (⟨S3200000, .i32⟩ : BufTy).Contents (Elt F)),
    ternary main_v12 main_v14 main_v1 main_v15 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v15 main_v16 (broadcastInDim S3200000x1 ![0] bcast_S3200000_S3200000x1_0 : (⟨S3200000, .i32⟩ : BufTy).Contents (Elt F) → (⟨S3200000x1, .i32⟩ : BufTy).Contents (Elt F)),
    binary main_v10 main_v16 main_v17 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    binary main_v17 main_arg2 main_v18 (mulf : (⟨S3200000, .f32⟩ : BufTy).Contents (Elt F) → (⟨S3200000, .f32⟩ : BufTy).Contents (Elt F) → (⟨S3200000, .f32⟩ : BufTy).Contents (Elt F)),
    nullary main_c_2 (constantI S_ 32 0#32),
    unary main_c_2 main_v19 (broadcastInDim S3200000 ![] bcast_S_S3200000 : (⟨S_, .i32⟩ : BufTy).Contents (Elt F) → (⟨S3200000, .i32⟩ : BufTy).Contents (Elt F)),
    binary main_v3 main_v19 main_v20 (cmpi .slt : (⟨S3200000, .i32⟩ : BufTy).Contents (Elt F) → (⟨S3200000, .i32⟩ : BufTy).Contents (Elt F) → (⟨S3200000, .i1⟩ : BufTy).Contents (Elt F)),
    nullary main_c_3 (constantI S_ 32 100000#32),
    unary main_c_3 main_v21 (broadcastInDim S3200000 ![] bcast_S_S3200000 : (⟨S_, .i32⟩ : BufTy).Contents (Elt F) → (⟨S3200000, .i32⟩ : BufTy).Contents (Elt F)),
    binary main_v3 main_v21 main_v22 (addi : (⟨S3200000, .i32⟩ : BufTy).Contents (Elt F) → (⟨S3200000, .i32⟩ : BufTy).Contents (Elt F) → (⟨S3200000, .i32⟩ : BufTy).Contents (Elt F)),
    ternary main_v20 main_v22 main_v3 main_v23 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v23 main_v24 (broadcastInDim S3200000x1 ![0] bcast_S3200000_S3200000x1_0 : (⟨S3200000, .i32⟩ : BufTy).Contents (Elt F) → (⟨S3200000x1, .i32⟩ : BufTy).Contents (Elt F)),
    binary main_v10 main_v24 main_v25 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    binary main_v18 main_v25 main_v26 (mulf : (⟨S3200000, .f32⟩ : BufTy).Contents (Elt F) → (⟨S3200000, .f32⟩ : BufTy).Contents (Elt F) → (⟨S3200000, .f32⟩ : BufTy).Contents (Elt F)),
    unary main_v26 main_v27 (broadcastInDim S3200000x1 ![0] bcast_S3200000_S3200000x1_0 : (⟨S3200000, .f32⟩ : BufTy).Contents (Elt F) → (⟨S3200000x1, .f32⟩ : BufTy).Contents (Elt F)),
    nullary main_c_4 (constantI S_ 32 0#32),
    unary main_c_4 main_v28 (broadcastInDim S3200000 ![] bcast_S_S3200000 : (⟨S_, .i32⟩ : BufTy).Contents (Elt F) → (⟨S3200000, .i32⟩ : BufTy).Contents (Elt F)),
    binary main_v1 main_v28 main_v29 (cmpi .slt : (⟨S3200000, .i32⟩ : BufTy).Contents (Elt F) → (⟨S3200000, .i32⟩ : BufTy).Contents (Elt F) → (⟨S3200000, .i1⟩ : BufTy).Contents (Elt F)),
    nullary main_c_5 (constantI S_ 32 100000#32),
    unary main_c_5 main_v30 (broadcastInDim S3200000 ![] bcast_S_S3200000 : (⟨S_, .i32⟩ : BufTy).Contents (Elt F) → (⟨S3200000, .i32⟩ : BufTy).Contents (Elt F)),
    binary main_v1 main_v30 main_v31 (addi : (⟨S3200000, .i32⟩ : BufTy).Contents (Elt F) → (⟨S3200000, .i32⟩ : BufTy).Contents (Elt F) → (⟨S3200000, .i32⟩ : BufTy).Contents (Elt F)),
    ternary main_v29 main_v31 main_v1 main_v32 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v32 main_v33 (broadcastInDim S3200000x1 ![0] bcast_S3200000_S3200000x1_0 : (⟨S3200000, .i32⟩ : BufTy).Contents (Elt F) → (⟨S3200000x1, .i32⟩ : BufTy).Contents (Elt F)),
    binary main_v4 main_v33 main_v34 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    unary main_v27 main_v35 (broadcastInDim S3200000x64 ![0, 1] bcast_S3200000x1_S3200000x64_0_1 : (⟨S3200000x1, .f32⟩ : BufTy).Contents (Elt F) → (⟨S3200000x64, .f32⟩ : BufTy).Contents (Elt F)),
    binary main_v35 main_v34 main_v36 (mulf : (⟨S3200000x64, .f32⟩ : BufTy).Contents (Elt F) → (⟨S3200000x64, .f32⟩ : BufTy).Contents (Elt F) → (⟨S3200000x64, .f32⟩ : BufTy).Contents (Elt F)),
    nullary main_cst_6 (constant S_ .f32 0x00000000#32),
    unary main_cst_6 main_v37 (broadcastInDim S100000x64 ![] bcast_S_S100000x64 : (⟨S_, .f32⟩ : BufTy).Contents (Elt F) → (⟨S100000x64, .f32⟩ : BufTy).Contents (Elt F)),
    unary main_v3 main_v38 (broadcastInDim S3200000x1 ![0] bcast_S3200000_S3200000x1_0 : (⟨S3200000, .i32⟩ : BufTy).Contents (Elt F) → (⟨S3200000x1, .i32⟩ : BufTy).Contents (Elt F)),
    ternary main_v37 main_v38 main_v36 main_v39 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)),
    binary main_v10 main_v10 main_v40 (mulf : (⟨S100000, .f32⟩ : BufTy).Contents (Elt F) → (⟨S100000, .f32⟩ : BufTy).Contents (Elt F) → (⟨S100000, .f32⟩ : BufTy).Contents (Elt F)),
    unary main_v40 main_v41 (broadcastInDim S100000x1 ![0] bcast_S100000_S100000x1_0 : (⟨S100000, .f32⟩ : BufTy).Contents (Elt F) → (⟨S100000x1, .f32⟩ : BufTy).Contents (Elt F)),
    unary main_v41 main_v42 (broadcastInDim S100000x64 ![0, 1] bcast_S100000x1_S100000x64_0_1 : (⟨S100000x1, .f32⟩ : BufTy).Contents (Elt F) → (⟨S100000x64, .f32⟩ : BufTy).Contents (Elt F)),
    binary main_v42 main_v4 main_v43 (mulf : (⟨S100000x64, .f32⟩ : BufTy).Contents (Elt F) → (⟨S100000x64, .f32⟩ : BufTy).Contents (Elt F) → (⟨S100000x64, .f32⟩ : BufTy).Contents (Elt F)),
    binary main_v39 main_v43 main_v44 (addf : (⟨S100000x64, .f32⟩ : BufTy).Contents (Elt F) → (⟨S100000x64, .f32⟩ : BufTy).Contents (Elt F) → (⟨S100000x64, .f32⟩ : BufTy).Contents (Elt F)),
    unary main_arg4 main_v45 (broadcastInDim S1x64 ![1] bcast_S64_S1x64_1 : (⟨S64, .f32⟩ : BufTy).Contents (Elt F) → (⟨S1x64, .f32⟩ : BufTy).Contents (Elt F)),
    unary main_v45 main_v46 (broadcastInDim S100000x64 ![0, 1] bcast_S1x64_S100000x64_0_1 : (⟨S1x64, .f32⟩ : BufTy).Contents (Elt F) → (⟨S100000x64, .f32⟩ : BufTy).Contents (Elt F)),
    binary main_v44 main_v46 main_v47 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v47) (TRef.of (T := ⟨S100000x64, .f32⟩) main_call0_v0) (TRef.of (T := ⟨S100000x64, .f32⟩) main_v48) maximumf,
    nullary main_cst_7 (constant S_ .f32 0x3F800000#32),
    unary main_cst_7 main_v49 (broadcastInDim S3200000 ![] bcast_S_S3200000 : (⟨S_, .f32⟩ : BufTy).Contents (Elt F) → (⟨S3200000, .f32⟩ : BufTy).Contents (Elt F)),
    binary main_v48 main_arg5 main_v50 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    nullary main_cst_8 (constant S_ .f32 0x00000000#32),
    unary main_cst_8 main_v51 (broadcastInDim S100000 ![] bcast_S_S100000 : (⟨S_, .f32⟩ : BufTy).Contents (Elt F) → (⟨S100000, .f32⟩ : BufTy).Contents (Elt F)),
    unary main_v3 main_v52 (broadcastInDim S3200000x1 ![0] bcast_S3200000_S3200000x1_0 : (⟨S3200000, .i32⟩ : BufTy).Contents (Elt F) → (⟨S3200000x1, .i32⟩ : BufTy).Contents (Elt F)),
    ternary main_v51 main_v52 main_v49 main_v53 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    nullary main_cst_9 (constant S_ .f32 0x3F800000#32),
    unary main_cst_9 main_v54 (broadcastInDim S100000 ![] bcast_S_S100000 : (⟨S_, .f32⟩ : BufTy).Contents (Elt F) → (⟨S100000, .f32⟩ : BufTy).Contents (Elt F)),
    binary main_v53 main_v54 main_v55 (addf : (⟨S100000, .f32⟩ : BufTy).Contents (Elt F) → (⟨S100000, .f32⟩ : BufTy).Contents (Elt F) → (⟨S100000, .f32⟩ : BufTy).Contents (Elt F)),
    unary main_v55 main_v56 (Host.rsqrt : (⟨S100000, .f32⟩ : BufTy).Contents (Elt F) → (⟨S100000, .f32⟩ : BufTy).Contents (Elt F)),
    nullary main_c_10 (constantI S_ 32 0#32),
    unary main_c_10 main_v57 (broadcastInDim S3200000 ![] bcast_S_S3200000 : (⟨S_, .i32⟩ : BufTy).Contents (Elt F) → (⟨S3200000, .i32⟩ : BufTy).Contents (Elt F)),
    binary main_v1 main_v57 main_v58 (cmpi .slt : (⟨S3200000, .i32⟩ : BufTy).Contents (Elt F) → (⟨S3200000, .i32⟩ : BufTy).Contents (Elt F) → (⟨S3200000, .i1⟩ : BufTy).Contents (Elt F)),
    nullary main_c_11 (constantI S_ 32 100000#32),
    unary main_c_11 main_v59 (broadcastInDim S3200000 ![] bcast_S_S3200000 : (⟨S_, .i32⟩ : BufTy).Contents (Elt F) → (⟨S3200000, .i32⟩ : BufTy).Contents (Elt F)),
    binary main_v1 main_v59 main_v60 (addi : (⟨S3200000, .i32⟩ : BufTy).Contents (Elt F) → (⟨S3200000, .i32⟩ : BufTy).Contents (Elt F) → (⟨S3200000, .i32⟩ : BufTy).Contents (Elt F)),
    ternary main_v58 main_v60 main_v1 main_v61 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v61 main_v62 (broadcastInDim S3200000x1 ![0] bcast_S3200000_S3200000x1_0 : (⟨S3200000, .i32⟩ : BufTy).Contents (Elt F) → (⟨S3200000x1, .i32⟩ : BufTy).Contents (Elt F)),
    binary main_v56 main_v62 main_v63 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    binary main_v63 main_v49 main_v64 (mulf : (⟨S3200000, .f32⟩ : BufTy).Contents (Elt F) → (⟨S3200000, .f32⟩ : BufTy).Contents (Elt F) → (⟨S3200000, .f32⟩ : BufTy).Contents (Elt F)),
    nullary main_c_12 (constantI S_ 32 0#32),
    unary main_c_12 main_v65 (broadcastInDim S3200000 ![] bcast_S_S3200000 : (⟨S_, .i32⟩ : BufTy).Contents (Elt F) → (⟨S3200000, .i32⟩ : BufTy).Contents (Elt F)),
    binary main_v3 main_v65 main_v66 (cmpi .slt : (⟨S3200000, .i32⟩ : BufTy).Contents (Elt F) → (⟨S3200000, .i32⟩ : BufTy).Contents (Elt F) → (⟨S3200000, .i1⟩ : BufTy).Contents (Elt F)),
    nullary main_c_13 (constantI S_ 32 100000#32),
    unary main_c_13 main_v67 (broadcastInDim S3200000 ![] bcast_S_S3200000 : (⟨S_, .i32⟩ : BufTy).Contents (Elt F) → (⟨S3200000, .i32⟩ : BufTy).Contents (Elt F)),
    binary main_v3 main_v67 main_v68 (addi : (⟨S3200000, .i32⟩ : BufTy).Contents (Elt F) → (⟨S3200000, .i32⟩ : BufTy).Contents (Elt F) → (⟨S3200000, .i32⟩ : BufTy).Contents (Elt F)),
    ternary main_v66 main_v68 main_v3 main_v69 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v69 main_v70 (broadcastInDim S3200000x1 ![0] bcast_S3200000_S3200000x1_0 : (⟨S3200000, .i32⟩ : BufTy).Contents (Elt F) → (⟨S3200000x1, .i32⟩ : BufTy).Contents (Elt F)),
    binary main_v56 main_v70 main_v71 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    binary main_v64 main_v71 main_v72 (mulf : (⟨S3200000, .f32⟩ : BufTy).Contents (Elt F) → (⟨S3200000, .f32⟩ : BufTy).Contents (Elt F) → (⟨S3200000, .f32⟩ : BufTy).Contents (Elt F)),
    unary main_v72 main_v73 (broadcastInDim S3200000x1 ![0] bcast_S3200000_S3200000x1_0 : (⟨S3200000, .f32⟩ : BufTy).Contents (Elt F) → (⟨S3200000x1, .f32⟩ : BufTy).Contents (Elt F)),
    nullary main_c_14 (constantI S_ 32 0#32),
    unary main_c_14 main_v74 (broadcastInDim S3200000 ![] bcast_S_S3200000 : (⟨S_, .i32⟩ : BufTy).Contents (Elt F) → (⟨S3200000, .i32⟩ : BufTy).Contents (Elt F)),
    binary main_v1 main_v74 main_v75 (cmpi .slt : (⟨S3200000, .i32⟩ : BufTy).Contents (Elt F) → (⟨S3200000, .i32⟩ : BufTy).Contents (Elt F) → (⟨S3200000, .i1⟩ : BufTy).Contents (Elt F)),
    nullary main_c_15 (constantI S_ 32 100000#32),
    unary main_c_15 main_v76 (broadcastInDim S3200000 ![] bcast_S_S3200000 : (⟨S_, .i32⟩ : BufTy).Contents (Elt F) → (⟨S3200000, .i32⟩ : BufTy).Contents (Elt F)),
    binary main_v1 main_v76 main_v77 (addi : (⟨S3200000, .i32⟩ : BufTy).Contents (Elt F) → (⟨S3200000, .i32⟩ : BufTy).Contents (Elt F) → (⟨S3200000, .i32⟩ : BufTy).Contents (Elt F)),
    ternary main_v75 main_v77 main_v1 main_v78 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v78 main_v79 (broadcastInDim S3200000x1 ![0] bcast_S3200000_S3200000x1_0 : (⟨S3200000, .i32⟩ : BufTy).Contents (Elt F) → (⟨S3200000x1, .i32⟩ : BufTy).Contents (Elt F)),
    binary main_v50 main_v79 main_v80 ((fun x i => Host.gather gather_S100000x40_S3200000x1_S3200000x40_1_0_n_n_0_1_140 x i) : (⟨S100000x40, .f32⟩ : BufTy).Contents (Elt F) → (⟨S3200000x1, .i32⟩ : BufTy).Contents (Elt F) → (⟨S3200000x40, .f32⟩ : BufTy).Contents (Elt F)),
    unary main_v73 main_v81 (broadcastInDim S3200000x40 ![0, 1] bcast_S3200000x1_S3200000x40_0_1 : (⟨S3200000x1, .f32⟩ : BufTy).Contents (Elt F) → (⟨S3200000x40, .f32⟩ : BufTy).Contents (Elt F)),
    binary main_v81 main_v80 main_v82 (mulf : (⟨S3200000x40, .f32⟩ : BufTy).Contents (Elt F) → (⟨S3200000x40, .f32⟩ : BufTy).Contents (Elt F) → (⟨S3200000x40, .f32⟩ : BufTy).Contents (Elt F)),
    nullary main_cst_16 (constant S_ .f32 0x00000000#32),
    unary main_cst_16 main_v83 (broadcastInDim S100000x40 ![] bcast_S_S100000x40 : (⟨S_, .f32⟩ : BufTy).Contents (Elt F) → (⟨S100000x40, .f32⟩ : BufTy).Contents (Elt F)),
    unary main_v3 main_v84 (broadcastInDim S3200000x1 ![0] bcast_S3200000_S3200000x1_0 : (⟨S3200000, .i32⟩ : BufTy).Contents (Elt F) → (⟨S3200000x1, .i32⟩ : BufTy).Contents (Elt F)),
    ternary main_v83 main_v84 main_v82 main_v85 ((fun x i u => Host.scatterAdd scatter_S100000x40_S3200000x1_S3200000x40_1_0_0_1 x i u) : (⟨S100000x40, .f32⟩ : BufTy).Contents (Elt F) → (⟨S3200000x1, .i32⟩ : BufTy).Contents (Elt F) → (⟨S3200000x40, .f32⟩ : BufTy).Contents (Elt F) → (⟨S100000x40, .f32⟩ : BufTy).Contents (Elt F)),
    binary main_v56 main_v56 main_v86 (mulf : (⟨S100000, .f32⟩ : BufTy).Contents (Elt F) → (⟨S100000, .f32⟩ : BufTy).Contents (Elt F) → (⟨S100000, .f32⟩ : BufTy).Contents (Elt F)),
    unary main_v86 main_v87 (broadcastInDim S100000x1 ![0] bcast_S100000_S100000x1_0 : (⟨S100000, .f32⟩ : BufTy).Contents (Elt F) → (⟨S100000x1, .f32⟩ : BufTy).Contents (Elt F)),
    unary main_v87 main_v88 (broadcastInDim S100000x40 ![0, 1] bcast_S100000x1_S100000x40_0_1 : (⟨S100000x1, .f32⟩ : BufTy).Contents (Elt F) → (⟨S100000x40, .f32⟩ : BufTy).Contents (Elt F)),
    binary main_v88 main_v50 main_v89 (mulf : (⟨S100000x40, .f32⟩ : BufTy).Contents (Elt F) → (⟨S100000x40, .f32⟩ : BufTy).Contents (Elt F) → (⟨S100000x40, .f32⟩ : BufTy).Contents (Elt F)),
    binary main_v85 main_v89 main_v90 (addf : (⟨S100000x40, .f32⟩ : BufTy).Contents (Elt F) → (⟨S100000x40, .f32⟩ : BufTy).Contents (Elt F) → (⟨S100000x40, .f32⟩ : BufTy).Contents (Elt F)),
    unary main_arg6 main_v91 (broadcastInDim S1x40 ![1] bcast_S40_S1x40_1 : (⟨S40, .f32⟩ : BufTy).Contents (Elt F) → (⟨S1x40, .f32⟩ : BufTy).Contents (Elt F)),
    unary main_v91 main_v92 (broadcastInDim S100000x40 ![0, 1] bcast_S1x40_S100000x40_0_1 : (⟨S1x40, .f32⟩ : BufTy).Contents (Elt F) → (⟨S100000x40, .f32⟩ : BufTy).Contents (Elt F)),
    binary main_v90 main_v92 main_v93 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call1_cst) (constant S_ .f32 0xFF800000#32),
    TRef.binary (TRef.of (T := ⟨S100000x40, .f32⟩) main_v93) (TRef.of (T := ⟨S_, .f32⟩) main_call1_cst) (TRef.of (T := ⟨S100000, .f32⟩) main_call1_v0) (fun x v => Host.reduce FloatOps.maximumf x v reducesTo_S100000x40_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x40, .f32⟩) main_call1_v4) (broadcastInDim S100000x40 ![0, 1] bcast_S100000x1_S100000x40_0_1),
    TRef.binary (TRef.of (T := ⟨S100000x40, .f32⟩) main_v93) (TRef.of (T := ⟨S100000x40, .f32⟩) main_call1_v4) (TRef.of (T := ⟨S100000x40, .f32⟩) main_call1_v5) subf,
    TRef.unary (TRef.of (T := ⟨S100000x40, .f32⟩) main_call1_v5) (TRef.of (T := ⟨S100000x40, .f32⟩) main_call1_v6) Host.exp,
    TRef.nullary (TRef.of (T := ⟨S_, .f32⟩) main_call1_cst_1) (constant S_ .f32 0x00000000#32),
    TRef.binary (TRef.of (T := ⟨S100000x40, .f32⟩) main_call1_v6) (TRef.of (T := ⟨S_, .f32⟩) main_call1_cst_1) (TRef.of (T := ⟨S100000, .f32⟩) main_call1_v7) (fun x v => Host.reduceAdd x v reducesTo_S100000x40_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x40, .f32⟩) main_call1_v10) (broadcastInDim S100000x40 ![0, 1] bcast_S100000x1_S100000x40_0_1),
    TRef.binary (TRef.of (T := ⟨S100000x40, .f32⟩) main_call1_v5) (TRef.of (T := ⟨S100000x40, .f32⟩) main_call1_v10) (TRef.of (T := ⟨S100000x40, .f32⟩) main_v94) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-! ## The seven windows -/

abbrev wA : List (HloOp τ sig (Elt F)) :=
  [ unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    reshape main_v2 main_v3 rfl shapeCasts_S1x3200000_S3200000,
    binary main_arg0 main_arg3 main_v4 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)) ]

abbrev wB : List (HloOp τ sig (Elt F)) :=
  [ nullary main_cst (constant S_ .f32 0x00000000#32),
    unary main_cst main_v5 (broadcastInDim S100000 ![] bcast_S_S100000 : (⟨S_, .f32⟩ : BufTy).Contents (Elt F) → (⟨S100000, .f32⟩ : BufTy).Contents (Elt F)),
    unary main_v3 main_v6 (broadcastInDim S3200000x1 ![0] bcast_S3200000_S3200000x1_0 : (⟨S3200000, .i32⟩ : BufTy).Contents (Elt F) → (⟨S3200000x1, .i32⟩ : BufTy).Contents (Elt F)),
    ternary main_v5 main_v6 main_arg2 main_v7 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    nullary main_cst_0 (constant S_ .f32 0x3F800000#32),
    unary main_cst_0 main_v8 (broadcastInDim S100000 ![] bcast_S_S100000 : (⟨S_, .f32⟩ : BufTy).Contents (Elt F) → (⟨S100000, .f32⟩ : BufTy).Contents (Elt F)),
    binary main_v7 main_v8 main_v9 (addf : (⟨S100000, .f32⟩ : BufTy).Contents (Elt F) → (⟨S100000, .f32⟩ : BufTy).Contents (Elt F) → (⟨S100000, .f32⟩ : BufTy).Contents (Elt F)),
    unary main_v9 main_v10 (Host.rsqrt : (⟨S100000, .f32⟩ : BufTy).Contents (Elt F) → (⟨S100000, .f32⟩ : BufTy).Contents (Elt F)),
    nullary main_c (constantI S_ 32 0#32),
    unary main_c main_v11 (broadcastInDim S3200000 ![] bcast_S_S3200000 : (⟨S_, .i32⟩ : BufTy).Contents (Elt F) → (⟨S3200000, .i32⟩ : BufTy).Contents (Elt F)),
    binary main_v1 main_v11 main_v12 (cmpi .slt : (⟨S3200000, .i32⟩ : BufTy).Contents (Elt F) → (⟨S3200000, .i32⟩ : BufTy).Contents (Elt F) → (⟨S3200000, .i1⟩ : BufTy).Contents (Elt F)),
    nullary main_c_1 (constantI S_ 32 100000#32),
    unary main_c_1 main_v13 (broadcastInDim S3200000 ![] bcast_S_S3200000 : (⟨S_, .i32⟩ : BufTy).Contents (Elt F) → (⟨S3200000, .i32⟩ : BufTy).Contents (Elt F)),
    binary main_v1 main_v13 main_v14 (addi : (⟨S3200000, .i32⟩ : BufTy).Contents (Elt F) → (⟨S3200000, .i32⟩ : BufTy).Contents (Elt F) → (⟨S3200000, .i32⟩ : BufTy).Contents (Elt F)),
    ternary main_v12 main_v14 main_v1 main_v15 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v15 main_v16 (broadcastInDim S3200000x1 ![0] bcast_S3200000_S3200000x1_0 : (⟨S3200000, .i32⟩ : BufTy).Contents (Elt F) → (⟨S3200000x1, .i32⟩ : BufTy).Contents (Elt F)),
    binary main_v10 main_v16 main_v17 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    binary main_v17 main_arg2 main_v18 (mulf : (⟨S3200000, .f32⟩ : BufTy).Contents (Elt F) → (⟨S3200000, .f32⟩ : BufTy).Contents (Elt F) → (⟨S3200000, .f32⟩ : BufTy).Contents (Elt F)),
    nullary main_c_2 (constantI S_ 32 0#32),
    unary main_c_2 main_v19 (broadcastInDim S3200000 ![] bcast_S_S3200000 : (⟨S_, .i32⟩ : BufTy).Contents (Elt F) → (⟨S3200000, .i32⟩ : BufTy).Contents (Elt F)),
    binary main_v3 main_v19 main_v20 (cmpi .slt : (⟨S3200000, .i32⟩ : BufTy).Contents (Elt F) → (⟨S3200000, .i32⟩ : BufTy).Contents (Elt F) → (⟨S3200000, .i1⟩ : BufTy).Contents (Elt F)),
    nullary main_c_3 (constantI S_ 32 100000#32),
    unary main_c_3 main_v21 (broadcastInDim S3200000 ![] bcast_S_S3200000 : (⟨S_, .i32⟩ : BufTy).Contents (Elt F) → (⟨S3200000, .i32⟩ : BufTy).Contents (Elt F)),
    binary main_v3 main_v21 main_v22 (addi : (⟨S3200000, .i32⟩ : BufTy).Contents (Elt F) → (⟨S3200000, .i32⟩ : BufTy).Contents (Elt F) → (⟨S3200000, .i32⟩ : BufTy).Contents (Elt F)),
    ternary main_v20 main_v22 main_v3 main_v23 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v23 main_v24 (broadcastInDim S3200000x1 ![0] bcast_S3200000_S3200000x1_0 : (⟨S3200000, .i32⟩ : BufTy).Contents (Elt F) → (⟨S3200000x1, .i32⟩ : BufTy).Contents (Elt F)),
    binary main_v10 main_v24 main_v25 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    binary main_v18 main_v25 main_v26 (mulf : (⟨S3200000, .f32⟩ : BufTy).Contents (Elt F) → (⟨S3200000, .f32⟩ : BufTy).Contents (Elt F) → (⟨S3200000, .f32⟩ : BufTy).Contents (Elt F)),
    unary main_v26 main_v27 (broadcastInDim S3200000x1 ![0] bcast_S3200000_S3200000x1_0 : (⟨S3200000, .f32⟩ : BufTy).Contents (Elt F) → (⟨S3200000x1, .f32⟩ : BufTy).Contents (Elt F)),
    nullary main_c_4 (constantI S_ 32 0#32),
    unary main_c_4 main_v28 (broadcastInDim S3200000 ![] bcast_S_S3200000 : (⟨S_, .i32⟩ : BufTy).Contents (Elt F) → (⟨S3200000, .i32⟩ : BufTy).Contents (Elt F)),
    binary main_v1 main_v28 main_v29 (cmpi .slt : (⟨S3200000, .i32⟩ : BufTy).Contents (Elt F) → (⟨S3200000, .i32⟩ : BufTy).Contents (Elt F) → (⟨S3200000, .i1⟩ : BufTy).Contents (Elt F)),
    nullary main_c_5 (constantI S_ 32 100000#32),
    unary main_c_5 main_v30 (broadcastInDim S3200000 ![] bcast_S_S3200000 : (⟨S_, .i32⟩ : BufTy).Contents (Elt F) → (⟨S3200000, .i32⟩ : BufTy).Contents (Elt F)),
    binary main_v1 main_v30 main_v31 (addi : (⟨S3200000, .i32⟩ : BufTy).Contents (Elt F) → (⟨S3200000, .i32⟩ : BufTy).Contents (Elt F) → (⟨S3200000, .i32⟩ : BufTy).Contents (Elt F)),
    ternary main_v29 main_v31 main_v1 main_v32 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v32 main_v33 (broadcastInDim S3200000x1 ![0] bcast_S3200000_S3200000x1_0 : (⟨S3200000, .i32⟩ : BufTy).Contents (Elt F) → (⟨S3200000x1, .i32⟩ : BufTy).Contents (Elt F)),
    binary main_v4 main_v33 main_v34 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    unary main_v27 main_v35 (broadcastInDim S3200000x64 ![0, 1] bcast_S3200000x1_S3200000x64_0_1 : (⟨S3200000x1, .f32⟩ : BufTy).Contents (Elt F) → (⟨S3200000x64, .f32⟩ : BufTy).Contents (Elt F)),
    binary main_v35 main_v34 main_v36 (mulf : (⟨S3200000x64, .f32⟩ : BufTy).Contents (Elt F) → (⟨S3200000x64, .f32⟩ : BufTy).Contents (Elt F) → (⟨S3200000x64, .f32⟩ : BufTy).Contents (Elt F)),
    nullary main_cst_6 (constant S_ .f32 0x00000000#32),
    unary main_cst_6 main_v37 (broadcastInDim S100000x64 ![] bcast_S_S100000x64 : (⟨S_, .f32⟩ : BufTy).Contents (Elt F) → (⟨S100000x64, .f32⟩ : BufTy).Contents (Elt F)),
    unary main_v3 main_v38 (broadcastInDim S3200000x1 ![0] bcast_S3200000_S3200000x1_0 : (⟨S3200000, .i32⟩ : BufTy).Contents (Elt F) → (⟨S3200000x1, .i32⟩ : BufTy).Contents (Elt F)),
    ternary main_v37 main_v38 main_v36 main_v39 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)),
    binary main_v10 main_v10 main_v40 (mulf : (⟨S100000, .f32⟩ : BufTy).Contents (Elt F) → (⟨S100000, .f32⟩ : BufTy).Contents (Elt F) → (⟨S100000, .f32⟩ : BufTy).Contents (Elt F)) ]

abbrev wC : List (HloOp τ sig (Elt F)) :=
  [ unary main_v40 main_v41 (broadcastInDim S100000x1 ![0] bcast_S100000_S100000x1_0 : (⟨S100000, .f32⟩ : BufTy).Contents (Elt F) → (⟨S100000x1, .f32⟩ : BufTy).Contents (Elt F)),
    unary main_v41 main_v42 (broadcastInDim S100000x64 ![0, 1] bcast_S100000x1_S100000x64_0_1 : (⟨S100000x1, .f32⟩ : BufTy).Contents (Elt F) → (⟨S100000x64, .f32⟩ : BufTy).Contents (Elt F)),
    binary main_v42 main_v4 main_v43 (mulf : (⟨S100000x64, .f32⟩ : BufTy).Contents (Elt F) → (⟨S100000x64, .f32⟩ : BufTy).Contents (Elt F) → (⟨S100000x64, .f32⟩ : BufTy).Contents (Elt F)),
    binary main_v39 main_v43 main_v44 (addf : (⟨S100000x64, .f32⟩ : BufTy).Contents (Elt F) → (⟨S100000x64, .f32⟩ : BufTy).Contents (Elt F) → (⟨S100000x64, .f32⟩ : BufTy).Contents (Elt F)),
    unary main_arg4 main_v45 (broadcastInDim S1x64 ![1] bcast_S64_S1x64_1 : (⟨S64, .f32⟩ : BufTy).Contents (Elt F) → (⟨S1x64, .f32⟩ : BufTy).Contents (Elt F)),
    unary main_v45 main_v46 (broadcastInDim S100000x64 ![0, 1] bcast_S1x64_S100000x64_0_1 : (⟨S1x64, .f32⟩ : BufTy).Contents (Elt F) → (⟨S100000x64, .f32⟩ : BufTy).Contents (Elt F)),
    binary main_v44 main_v46 main_v47 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v47) (TRef.of (T := ⟨S100000x64, .f32⟩) main_call0_v0) (TRef.of (T := ⟨S100000x64, .f32⟩) main_v48) maximumf ]

abbrev wD : List (HloOp τ sig (Elt F)) :=
  [ nullary main_cst_7 (constant S_ .f32 0x3F800000#32),
    unary main_cst_7 main_v49 (broadcastInDim S3200000 ![] bcast_S_S3200000 : (⟨S_, .f32⟩ : BufTy).Contents (Elt F) → (⟨S3200000, .f32⟩ : BufTy).Contents (Elt F)),
    binary main_v48 main_arg5 main_v50 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)) ]

abbrev wE : List (HloOp τ sig (Elt F)) :=
  [ nullary main_cst_8 (constant S_ .f32 0x00000000#32),
    unary main_cst_8 main_v51 (broadcastInDim S100000 ![] bcast_S_S100000 : (⟨S_, .f32⟩ : BufTy).Contents (Elt F) → (⟨S100000, .f32⟩ : BufTy).Contents (Elt F)),
    unary main_v3 main_v52 (broadcastInDim S3200000x1 ![0] bcast_S3200000_S3200000x1_0 : (⟨S3200000, .i32⟩ : BufTy).Contents (Elt F) → (⟨S3200000x1, .i32⟩ : BufTy).Contents (Elt F)),
    ternary main_v51 main_v52 main_v49 main_v53 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    nullary main_cst_9 (constant S_ .f32 0x3F800000#32),
    unary main_cst_9 main_v54 (broadcastInDim S100000 ![] bcast_S_S100000 : (⟨S_, .f32⟩ : BufTy).Contents (Elt F) → (⟨S100000, .f32⟩ : BufTy).Contents (Elt F)),
    binary main_v53 main_v54 main_v55 (addf : (⟨S100000, .f32⟩ : BufTy).Contents (Elt F) → (⟨S100000, .f32⟩ : BufTy).Contents (Elt F) → (⟨S100000, .f32⟩ : BufTy).Contents (Elt F)),
    unary main_v55 main_v56 (Host.rsqrt : (⟨S100000, .f32⟩ : BufTy).Contents (Elt F) → (⟨S100000, .f32⟩ : BufTy).Contents (Elt F)),
    nullary main_c_10 (constantI S_ 32 0#32),
    unary main_c_10 main_v57 (broadcastInDim S3200000 ![] bcast_S_S3200000 : (⟨S_, .i32⟩ : BufTy).Contents (Elt F) → (⟨S3200000, .i32⟩ : BufTy).Contents (Elt F)),
    binary main_v1 main_v57 main_v58 (cmpi .slt : (⟨S3200000, .i32⟩ : BufTy).Contents (Elt F) → (⟨S3200000, .i32⟩ : BufTy).Contents (Elt F) → (⟨S3200000, .i1⟩ : BufTy).Contents (Elt F)),
    nullary main_c_11 (constantI S_ 32 100000#32),
    unary main_c_11 main_v59 (broadcastInDim S3200000 ![] bcast_S_S3200000 : (⟨S_, .i32⟩ : BufTy).Contents (Elt F) → (⟨S3200000, .i32⟩ : BufTy).Contents (Elt F)),
    binary main_v1 main_v59 main_v60 (addi : (⟨S3200000, .i32⟩ : BufTy).Contents (Elt F) → (⟨S3200000, .i32⟩ : BufTy).Contents (Elt F) → (⟨S3200000, .i32⟩ : BufTy).Contents (Elt F)),
    ternary main_v58 main_v60 main_v1 main_v61 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v61 main_v62 (broadcastInDim S3200000x1 ![0] bcast_S3200000_S3200000x1_0 : (⟨S3200000, .i32⟩ : BufTy).Contents (Elt F) → (⟨S3200000x1, .i32⟩ : BufTy).Contents (Elt F)),
    binary main_v56 main_v62 main_v63 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    binary main_v63 main_v49 main_v64 (mulf : (⟨S3200000, .f32⟩ : BufTy).Contents (Elt F) → (⟨S3200000, .f32⟩ : BufTy).Contents (Elt F) → (⟨S3200000, .f32⟩ : BufTy).Contents (Elt F)),
    nullary main_c_12 (constantI S_ 32 0#32),
    unary main_c_12 main_v65 (broadcastInDim S3200000 ![] bcast_S_S3200000 : (⟨S_, .i32⟩ : BufTy).Contents (Elt F) → (⟨S3200000, .i32⟩ : BufTy).Contents (Elt F)),
    binary main_v3 main_v65 main_v66 (cmpi .slt : (⟨S3200000, .i32⟩ : BufTy).Contents (Elt F) → (⟨S3200000, .i32⟩ : BufTy).Contents (Elt F) → (⟨S3200000, .i1⟩ : BufTy).Contents (Elt F)),
    nullary main_c_13 (constantI S_ 32 100000#32),
    unary main_c_13 main_v67 (broadcastInDim S3200000 ![] bcast_S_S3200000 : (⟨S_, .i32⟩ : BufTy).Contents (Elt F) → (⟨S3200000, .i32⟩ : BufTy).Contents (Elt F)),
    binary main_v3 main_v67 main_v68 (addi : (⟨S3200000, .i32⟩ : BufTy).Contents (Elt F) → (⟨S3200000, .i32⟩ : BufTy).Contents (Elt F) → (⟨S3200000, .i32⟩ : BufTy).Contents (Elt F)),
    ternary main_v66 main_v68 main_v3 main_v69 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v69 main_v70 (broadcastInDim S3200000x1 ![0] bcast_S3200000_S3200000x1_0 : (⟨S3200000, .i32⟩ : BufTy).Contents (Elt F) → (⟨S3200000x1, .i32⟩ : BufTy).Contents (Elt F)),
    binary main_v56 main_v70 main_v71 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    binary main_v64 main_v71 main_v72 (mulf : (⟨S3200000, .f32⟩ : BufTy).Contents (Elt F) → (⟨S3200000, .f32⟩ : BufTy).Contents (Elt F) → (⟨S3200000, .f32⟩ : BufTy).Contents (Elt F)),
    unary main_v72 main_v73 (broadcastInDim S3200000x1 ![0] bcast_S3200000_S3200000x1_0 : (⟨S3200000, .f32⟩ : BufTy).Contents (Elt F) → (⟨S3200000x1, .f32⟩ : BufTy).Contents (Elt F)),
    nullary main_c_14 (constantI S_ 32 0#32),
    unary main_c_14 main_v74 (broadcastInDim S3200000 ![] bcast_S_S3200000 : (⟨S_, .i32⟩ : BufTy).Contents (Elt F) → (⟨S3200000, .i32⟩ : BufTy).Contents (Elt F)),
    binary main_v1 main_v74 main_v75 (cmpi .slt : (⟨S3200000, .i32⟩ : BufTy).Contents (Elt F) → (⟨S3200000, .i32⟩ : BufTy).Contents (Elt F) → (⟨S3200000, .i1⟩ : BufTy).Contents (Elt F)),
    nullary main_c_15 (constantI S_ 32 100000#32),
    unary main_c_15 main_v76 (broadcastInDim S3200000 ![] bcast_S_S3200000 : (⟨S_, .i32⟩ : BufTy).Contents (Elt F) → (⟨S3200000, .i32⟩ : BufTy).Contents (Elt F)),
    binary main_v1 main_v76 main_v77 (addi : (⟨S3200000, .i32⟩ : BufTy).Contents (Elt F) → (⟨S3200000, .i32⟩ : BufTy).Contents (Elt F) → (⟨S3200000, .i32⟩ : BufTy).Contents (Elt F)),
    ternary main_v75 main_v77 main_v1 main_v78 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v78 main_v79 (broadcastInDim S3200000x1 ![0] bcast_S3200000_S3200000x1_0 : (⟨S3200000, .i32⟩ : BufTy).Contents (Elt F) → (⟨S3200000x1, .i32⟩ : BufTy).Contents (Elt F)),
    binary main_v50 main_v79 main_v80 ((fun x i => Host.gather gather_S100000x40_S3200000x1_S3200000x40_1_0_n_n_0_1_140 x i) : (⟨S100000x40, .f32⟩ : BufTy).Contents (Elt F) → (⟨S3200000x1, .i32⟩ : BufTy).Contents (Elt F) → (⟨S3200000x40, .f32⟩ : BufTy).Contents (Elt F)),
    unary main_v73 main_v81 (broadcastInDim S3200000x40 ![0, 1] bcast_S3200000x1_S3200000x40_0_1 : (⟨S3200000x1, .f32⟩ : BufTy).Contents (Elt F) → (⟨S3200000x40, .f32⟩ : BufTy).Contents (Elt F)),
    binary main_v81 main_v80 main_v82 (mulf : (⟨S3200000x40, .f32⟩ : BufTy).Contents (Elt F) → (⟨S3200000x40, .f32⟩ : BufTy).Contents (Elt F) → (⟨S3200000x40, .f32⟩ : BufTy).Contents (Elt F)),
    nullary main_cst_16 (constant S_ .f32 0x00000000#32),
    unary main_cst_16 main_v83 (broadcastInDim S100000x40 ![] bcast_S_S100000x40 : (⟨S_, .f32⟩ : BufTy).Contents (Elt F) → (⟨S100000x40, .f32⟩ : BufTy).Contents (Elt F)),
    unary main_v3 main_v84 (broadcastInDim S3200000x1 ![0] bcast_S3200000_S3200000x1_0 : (⟨S3200000, .i32⟩ : BufTy).Contents (Elt F) → (⟨S3200000x1, .i32⟩ : BufTy).Contents (Elt F)),
    ternary main_v83 main_v84 main_v82 main_v85 ((fun x i u => Host.scatterAdd scatter_S100000x40_S3200000x1_S3200000x40_1_0_0_1 x i u) : (⟨S100000x40, .f32⟩ : BufTy).Contents (Elt F) → (⟨S3200000x1, .i32⟩ : BufTy).Contents (Elt F) → (⟨S3200000x40, .f32⟩ : BufTy).Contents (Elt F) → (⟨S100000x40, .f32⟩ : BufTy).Contents (Elt F)),
    binary main_v56 main_v56 main_v86 (mulf : (⟨S100000, .f32⟩ : BufTy).Contents (Elt F) → (⟨S100000, .f32⟩ : BufTy).Contents (Elt F) → (⟨S100000, .f32⟩ : BufTy).Contents (Elt F)) ]

abbrev wF : List (HloOp τ sig (Elt F)) :=
  [ unary main_v86 main_v87 (broadcastInDim S100000x1 ![0] bcast_S100000_S100000x1_0 : (⟨S100000, .f32⟩ : BufTy).Contents (Elt F) → (⟨S100000x1, .f32⟩ : BufTy).Contents (Elt F)),
    unary main_v87 main_v88 (broadcastInDim S100000x40 ![0, 1] bcast_S100000x1_S100000x40_0_1 : (⟨S100000x1, .f32⟩ : BufTy).Contents (Elt F) → (⟨S100000x40, .f32⟩ : BufTy).Contents (Elt F)),
    binary main_v88 main_v50 main_v89 (mulf : (⟨S100000x40, .f32⟩ : BufTy).Contents (Elt F) → (⟨S100000x40, .f32⟩ : BufTy).Contents (Elt F) → (⟨S100000x40, .f32⟩ : BufTy).Contents (Elt F)),
    binary main_v85 main_v89 main_v90 (addf : (⟨S100000x40, .f32⟩ : BufTy).Contents (Elt F) → (⟨S100000x40, .f32⟩ : BufTy).Contents (Elt F) → (⟨S100000x40, .f32⟩ : BufTy).Contents (Elt F)),
    unary main_arg6 main_v91 (broadcastInDim S1x40 ![1] bcast_S40_S1x40_1 : (⟨S40, .f32⟩ : BufTy).Contents (Elt F) → (⟨S1x40, .f32⟩ : BufTy).Contents (Elt F)),
    unary main_v91 main_v92 (broadcastInDim S100000x40 ![0, 1] bcast_S1x40_S100000x40_0_1 : (⟨S1x40, .f32⟩ : BufTy).Contents (Elt F) → (⟨S100000x40, .f32⟩ : BufTy).Contents (Elt F)),
    binary main_v90 main_v92 main_v93 (addf : (⟨S100000x40, .f32⟩ : BufTy).Contents (Elt F) → (⟨S100000x40, .f32⟩ : BufTy).Contents (Elt F) → (⟨S100000x40, .f32⟩ : BufTy).Contents (Elt F)) ]

abbrev wG : List (HloOp τ sig (Elt F)) :=
  [ TRef.nullary (TRef.of (T := ⟨S_, .f32⟩) main_call1_cst) (constant S_ .f32 0xFF800000#32),
    TRef.binary (TRef.of (T := ⟨S100000x40, .f32⟩) main_v93) (TRef.of (T := ⟨S_, .f32⟩) main_call1_cst) (TRef.of (T := ⟨S100000, .f32⟩) main_call1_v0) (fun x v => Host.reduce FloatOps.maximumf x v reducesTo_S100000x40_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x40, .f32⟩) main_call1_v4) (broadcastInDim S100000x40 ![0, 1] bcast_S100000x1_S100000x40_0_1),
    TRef.binary (TRef.of (T := ⟨S100000x40, .f32⟩) main_v93) (TRef.of (T := ⟨S100000x40, .f32⟩) main_call1_v4) (TRef.of (T := ⟨S100000x40, .f32⟩) main_call1_v5) subf,
    TRef.unary (TRef.of (T := ⟨S100000x40, .f32⟩) main_call1_v5) (TRef.of (T := ⟨S100000x40, .f32⟩) main_call1_v6) Host.exp,
    TRef.nullary (TRef.of (T := ⟨S_, .f32⟩) main_call1_cst_1) (constant S_ .f32 0x00000000#32),
    TRef.binary (TRef.of (T := ⟨S100000x40, .f32⟩) main_call1_v6) (TRef.of (T := ⟨S_, .f32⟩) main_call1_cst_1) (TRef.of (T := ⟨S100000, .f32⟩) main_call1_v7) (fun x v => Host.reduceAdd x v reducesTo_S100000x40_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x40, .f32⟩) main_call1_v10) (broadcastInDim S100000x40 ![0, 1] bcast_S100000x1_S100000x40_0_1),
    TRef.binary (TRef.of (T := ⟨S100000x40, .f32⟩) main_call1_v5) (TRef.of (T := ⟨S100000x40, .f32⟩) main_call1_v10) (TRef.of (T := ⟨S100000x40, .f32⟩) main_v94) subf ]

set_option maxRecDepth 8192 in
theorem ops_split : (ops : List (HloOp τ sig (Elt F))) = wA ++ (wB ++ (wC ++ (wD ++ (wE ++ (wF ++ wG))))) := rfl

end Program

/-- The contents after two lines run in order. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih _

/-! ## Broadcasts read at an index -/

section Broadcasts

variable {α : Type} {n d : ℕ}

/-- A vector made a one-column matrix reads, at (r, u), its entry r. -/
theorem bcol1_apply (hn : n ≠ 1) (h : (⟨1, ![n]⟩ : Shape).BroadcastsInDim ⟨2, ![n, 1]⟩ ![0])
    (y : (⟨1, ![n]⟩ : Shape).Idx → α) (j : (⟨2, ![n, 1]⟩ : Shape).Idx) :
    broadcastInDim ⟨2, ![n, 1]⟩ ![0] h y j = y (ix1 (j 0)) :=
  broadcastInDim_apply _ h y j (ix1 (j 0)) (fun a => match a with
    | ⟨0, _⟩ => by show (j 0).val = if n = 1 then 0 else (j 0).val; rw [if_neg hn])

/-- A one-column matrix broadcast along the rows reads, at (r, c), its entry (r, 0). -/
theorem bcol2_apply (hn : n ≠ 1) (h : (⟨2, ![n, 1]⟩ : Shape).BroadcastsInDim ⟨2, ![n, d]⟩ ![0, 1])
    (z : (⟨2, ![n, 1]⟩ : Shape).Idx → α) (i : (⟨2, ![n, d]⟩ : Shape).Idx) :
    broadcastInDim ⟨2, ![n, d]⟩ ![0, 1] h z i = z (ix2 (i 0) (0 : Fin 1)) :=
  broadcastInDim_apply _ h z i (ix2 (i 0) (0 : Fin 1)) (fun a => match a with
    | ⟨0, _⟩ => by show (i 0).val = if n = 1 then 0 else (i 0).val; rw [if_neg hn]
    | ⟨1, _⟩ => by show 0 = if (1 : ℕ) = 1 then 0 else (i 1).val; rw [if_pos rfl])

/-- A vector made a one-row matrix reads, at (u, c), its entry c. -/
theorem brow1_apply (hd : d ≠ 1) (h : (⟨1, ![d]⟩ : Shape).BroadcastsInDim ⟨2, ![1, d]⟩ ![1])
    (y : (⟨1, ![d]⟩ : Shape).Idx → α) (j : (⟨2, ![1, d]⟩ : Shape).Idx) :
    broadcastInDim ⟨2, ![1, d]⟩ ![1] h y j = y (ix1 (j 1)) :=
  broadcastInDim_apply _ h y j (ix1 (j 1)) (fun a => match a with
    | ⟨0, _⟩ => by show (j 1).val = if d = 1 then 0 else (j 1).val; rw [if_neg hd])

/-- A one-row matrix broadcast along the columns reads, at (r, c), its entry (0, c). -/
theorem brow2_apply (hd : d ≠ 1) (h : (⟨2, ![1, d]⟩ : Shape).BroadcastsInDim ⟨2, ![n, d]⟩ ![0, 1])
    (z : (⟨2, ![1, d]⟩ : Shape).Idx → α) (i : (⟨2, ![n, d]⟩ : Shape).Idx) :
    broadcastInDim ⟨2, ![n, d]⟩ ![0, 1] h z i = z (ix2 (0 : Fin 1) (i 1)) :=
  broadcastInDim_apply _ h z i (ix2 (0 : Fin 1) (i 1)) (fun a => match a with
    | ⟨0, _⟩ => by show 0 = if (1 : ℕ) = 1 then 0 else (i 0).val; rw [if_pos rfl]
    | ⟨1, _⟩ => by show (i 1).val = if d = 1 then 0 else (i 1).val; rw [if_neg hd])

/-- A scalar broadcast to any shape reads its one entry everywhere. -/
theorem bscalar_apply {t : Shape} (h : (⟨0, ![]⟩ : Shape).BroadcastsInDim t ![])
    (y : (⟨0, ![]⟩ : Shape).Idx → α) (i : t.Idx) :
    broadcastInDim t ![] h y i = y ix0 :=
  broadcastInDim_apply _ h y i ix0 (fun a => a.elim0)

end Broadcasts

/-! ## The matrix products -/

theorem lhs64_0 (i : S100000x64.Idx) (q : dot_S100000x256_S256x64_S100000x64_1_0_0_1_n_n.contr.Idx) :
    (dot_S100000x256_S256x64_S100000x64_1_0_0_1_n_n.lhsIdx i q 0).val = (i 0).val := by
  unfold DotDims.lhsIdx
  rw [dif_neg (show ¬(0 : Fin S100000x256.rank) ∈ dot_S100000x256_S256x64_S100000x64_1_0_0_1_n_n.lhsBatch by decide), dif_pos (show (0 : Fin S100000x256.rank) ∈ dot_S100000x256_S256x64_S100000x64_1_0_0_1_n_n.lhsNonContracting by decide)]
  rfl
theorem lhs64_1 (i : S100000x64.Idx) (q : dot_S100000x256_S256x64_S100000x64_1_0_0_1_n_n.contr.Idx) :
    (dot_S100000x256_S256x64_S100000x64_1_0_0_1_n_n.lhsIdx i q 1).val = (q ⟨0, by decide⟩).val :=
  dot_S100000x256_S256x64_S100000x64_1_0_0_1_n_n.lhsIdx_val_of_single rfl i q
theorem rhs64_0 (i : S100000x64.Idx) (q : dot_S100000x256_S256x64_S100000x64_1_0_0_1_n_n.contr.Idx) :
    (dot_S100000x256_S256x64_S100000x64_1_0_0_1_n_n.rhsIdx i q 0).val = (q ⟨0, by decide⟩).val :=
  dot_S100000x256_S256x64_S100000x64_1_0_0_1_n_n.rhsIdx_val_of_single rfl i q
theorem rhs64_1 (i : S100000x64.Idx) (q : dot_S100000x256_S256x64_S100000x64_1_0_0_1_n_n.contr.Idx) :
    (dot_S100000x256_S256x64_S100000x64_1_0_0_1_n_n.rhsIdx i q 1).val = (i 1).val := by
  unfold DotDims.rhsIdx
  rw [dif_neg (show ¬(1 : Fin S256x64.rank) ∈ dot_S100000x256_S256x64_S100000x64_1_0_0_1_n_n.rhsBatch by decide), dif_pos (show (1 : Fin S256x64.rank) ∈ dot_S100000x256_S256x64_S100000x64_1_0_0_1_n_n.rhsNonContracting by decide)]
  rfl

/-- The first product: the host's dot_general over the plain dimension numbers is the sum over the contracted coordinate. -/
theorem dot64_eq (x : Model.FArr S100000x256) (W : Model.FArr S256x64) :
    Host.dotGeneral dot_S100000x256_S256x64_S100000x64_1_0_0_1_n_n none x W = Model.mm x W := by
  funext i
  simp only [Host.dotGeneral]
  rw [Ideal.dotGeneral_apply, ← Equiv.sum_comp (contrEquiv1 dot_S100000x256_S256x64_S100000x64_1_0_0_1_n_n 256 rfl rfl).symm]
  unfold Model.mm
  refine Finset.sum_congr rfl fun k _ => ?_
  have hk := contrEquiv1_symm_val dot_S100000x256_S256x64_S100000x64_1_0_0_1_n_n 256 rfl rfl k
  have el : dot_S100000x256_S256x64_S100000x64_1_0_0_1_n_n.lhsIdx i ((contrEquiv1 dot_S100000x256_S256x64_S100000x64_1_0_0_1_n_n 256 rfl rfl).symm k) = ix2 (i 0) k := funext fun a => Fin.ext (by
    match a with
    | ⟨0, _⟩ => exact lhs64_0 _ _
    | ⟨1, _⟩ => exact (lhs64_1 _ _).trans hk)
  have er : dot_S100000x256_S256x64_S100000x64_1_0_0_1_n_n.rhsIdx i ((contrEquiv1 dot_S100000x256_S256x64_S100000x64_1_0_0_1_n_n 256 rfl rfl).symm k) = ix2 k (i 1) := funext fun a => Fin.ext (by
    match a with
    | ⟨0, _⟩ => exact (rhs64_0 _ _).trans hk
    | ⟨1, _⟩ => exact rhs64_1 _ _)
  rw [el, er]
  rfl

theorem lhs40_0 (i : S100000x40.Idx) (q : dot_S100000x64_S64x40_S100000x40_1_0_0_1_n_n.contr.Idx) :
    (dot_S100000x64_S64x40_S100000x40_1_0_0_1_n_n.lhsIdx i q 0).val = (i 0).val := by
  unfold DotDims.lhsIdx
  rw [dif_neg (show ¬(0 : Fin S100000x64.rank) ∈ dot_S100000x64_S64x40_S100000x40_1_0_0_1_n_n.lhsBatch by decide), dif_pos (show (0 : Fin S100000x64.rank) ∈ dot_S100000x64_S64x40_S100000x40_1_0_0_1_n_n.lhsNonContracting by decide)]
  rfl
theorem lhs40_1 (i : S100000x40.Idx) (q : dot_S100000x64_S64x40_S100000x40_1_0_0_1_n_n.contr.Idx) :
    (dot_S100000x64_S64x40_S100000x40_1_0_0_1_n_n.lhsIdx i q 1).val = (q ⟨0, by decide⟩).val :=
  dot_S100000x64_S64x40_S100000x40_1_0_0_1_n_n.lhsIdx_val_of_single rfl i q
theorem rhs40_0 (i : S100000x40.Idx) (q : dot_S100000x64_S64x40_S100000x40_1_0_0_1_n_n.contr.Idx) :
    (dot_S100000x64_S64x40_S100000x40_1_0_0_1_n_n.rhsIdx i q 0).val = (q ⟨0, by decide⟩).val :=
  dot_S100000x64_S64x40_S100000x40_1_0_0_1_n_n.rhsIdx_val_of_single rfl i q
theorem rhs40_1 (i : S100000x40.Idx) (q : dot_S100000x64_S64x40_S100000x40_1_0_0_1_n_n.contr.Idx) :
    (dot_S100000x64_S64x40_S100000x40_1_0_0_1_n_n.rhsIdx i q 1).val = (i 1).val := by
  unfold DotDims.rhsIdx
  rw [dif_neg (show ¬(1 : Fin S64x40.rank) ∈ dot_S100000x64_S64x40_S100000x40_1_0_0_1_n_n.rhsBatch by decide), dif_pos (show (1 : Fin S64x40.rank) ∈ dot_S100000x64_S64x40_S100000x40_1_0_0_1_n_n.rhsNonContracting by decide)]
  rfl

/-- The second product. -/
theorem dot40_eq (x : Model.FArr S100000x64) (W : Model.FArr S64x40) :
    Host.dotGeneral dot_S100000x64_S64x40_S100000x40_1_0_0_1_n_n none x W = Model.mm x W := by
  funext i
  simp only [Host.dotGeneral]
  rw [Ideal.dotGeneral_apply, ← Equiv.sum_comp (contrEquiv1 dot_S100000x64_S64x40_S100000x40_1_0_0_1_n_n 64 rfl rfl).symm]
  unfold Model.mm
  refine Finset.sum_congr rfl fun k _ => ?_
  have hk := contrEquiv1_symm_val dot_S100000x64_S64x40_S100000x40_1_0_0_1_n_n 64 rfl rfl k
  have el : dot_S100000x64_S64x40_S100000x40_1_0_0_1_n_n.lhsIdx i ((contrEquiv1 dot_S100000x64_S64x40_S100000x40_1_0_0_1_n_n 64 rfl rfl).symm k) = ix2 (i 0) k := funext fun a => Fin.ext (by
    match a with
    | ⟨0, _⟩ => exact lhs40_0 _ _
    | ⟨1, _⟩ => exact (lhs40_1 _ _).trans hk)
  have er : dot_S100000x64_S64x40_S100000x40_1_0_0_1_n_n.rhsIdx i ((contrEquiv1 dot_S100000x64_S64x40_S100000x40_1_0_0_1_n_n 64 rfl rfl).symm k) = ix2 k (i 1) := funext fun a => Fin.ext (by
    match a with
    | ⟨0, _⟩ => exact (rhs40_0 _ _).trans hk
    | ⟨1, _⟩ => exact rhs40_1 _ _)
  rw [el, er]
  rfl

/-! ## The combinations -/

/-- The first layer's combination and ramp. -/
theorem ramp_comb64 (agg h : Model.FArr S100000x64) (dd : Model.FArr S100000) (b : Model.FArr S64) :
    maximumf (addf (addf agg (mulf (broadcastInDim S100000x64 ![0, 1] bcast_S100000x1_S100000x64_0_1 (broadcastInDim S100000x1 ![0] bcast_S100000_S100000x1_0 dd)) h))
        (broadcastInDim S100000x64 ![0, 1] bcast_S1x64_S100000x64_0_1 (broadcastInDim S1x64 ![1] bcast_S64_S1x64_1 b)))
      (broadcastInDim S100000x64 ![] bcast_S_S100000x64 (constant (F := Ideal) S_ .f32 0x00000000#32))
      = Model.ramp (Model.comb agg h (Model.colOf dd) (Model.rowOf b)) := by
  funext i
  simp only [maximumf_apply, addf_apply, mulf_apply]
  rw [bcol2_apply (by decide) bcast_S100000x1_S100000x64_0_1, bcol1_apply (by decide) bcast_S100000_S100000x1_0,
    brow2_apply (by decide) bcast_S1x64_S100000x64_0_1, brow1_apply (by decide) bcast_S64_S1x64_1,
    bscalar_apply bcast_S_S100000x64]
  rfl

/-- The second layer's combination. -/
theorem comb40 (agg h : Model.FArr S100000x40) (dd : Model.FArr S100000) (b : Model.FArr S40) :
    addf (addf agg (mulf (broadcastInDim S100000x40 ![0, 1] bcast_S100000x1_S100000x40_0_1 (broadcastInDim S100000x1 ![0] bcast_S100000_S100000x1_0 dd)) h))
        (broadcastInDim S100000x40 ![0, 1] bcast_S1x40_S100000x40_0_1 (broadcastInDim S1x40 ![1] bcast_S40_S1x40_1 b))
      = Model.comb agg h (Model.colOf dd) (Model.rowOf b) := by
  funext i
  simp only [addf_apply, mulf_apply]
  rw [bcol2_apply (by decide) bcast_S100000x1_S100000x40_0_1, bcol1_apply (by decide) bcast_S100000_S100000x1_0,
    brow2_apply (by decide) bcast_S1x40_S100000x40_0_1, brow1_apply (by decide) bcast_S40_S1x40_1]
  rfl

/-! ## The row-wise log-softmax -/

/-- The reference's row maximum — the maximum of the initial value with the fold from it — is the fold. -/
theorem rowMax_eq (v : Model.FArr S100000x40) (r : Fin 100000) :
    maximumf (broadcastInDim S100000 ![] bcast_S_S100000 (constant (F := Ideal) S_ .f32 0xFF800000#32))
        (Host.reduce FloatOps.maximumf v (constant (F := Ideal) S_ .f32 0xFF800000#32) reducesTo_S100000x40_S100000_d1 h_S_) (ix1 r)
      = Model.rowMax v r := by
  rw [maximumf_apply, bscalar_apply bcast_S_S100000,
    Cert.LibRows.hostLaneMax_apply v _ reducesTo_S100000x40_S100000_d1 (by decide) h_S_ r]
  exact max_eq_right ((Finset.le_fold_max _).mpr (Or.inl le_rfl))

/-- The reference's row sum, into the zero word's value, is the sum of the row. -/
theorem rowSum_eq (y : Model.FArr S100000x40) (r : Fin 100000) :
    Host.reduceAdd y (constant (F := Ideal) S_ .f32 0x00000000#32) reducesTo_S100000x40_S100000_d1 h_S_ (ix1 r)
      = ∑ c : Fin 40, y (ix2 r c) := by
  simp only [Host.reduceAdd, Ideal.hostReduceAdd_def]
  rw [Ideal.hostReduceAdd_single reducesTo_S100000x40_S100000_d1 (by decide), constant_apply, Ideal.ofBits_zero_f32, zero_add]
  exact Finset.sum_congr rfl fun k _ => congrArg y (Cert.LibRows.lift_axis1 _ r k)

/-- The host's logarithm and exponential at an index. -/
theorem hostLog_apply {s : Shape} (x : FVec Ideal s .f32) (i : s.Idx) : Host.log x i = Ideal.log (x i) := rfl
theorem hostExp_apply {s : Shape} (x : FVec Ideal s .f32) (i : s.Idx) : Host.exp x i = Ideal.exp (x i) := rfl

/-- The log-softmax over any row maximum M. -/
theorem logSoftmax_core (v : Model.FArr S100000x40) (M : Model.FArr S100000) (hM : ∀ r : Fin 100000, M (ix1 r) = Model.rowMax v r) :
    subf (subf v (broadcastInDim S100000x40 ![0, 1] bcast_S100000x1_S100000x40_0_1 (broadcastInDim S100000x1 ![0] bcast_S100000_S100000x1_0 M)))
      (broadcastInDim S100000x40 ![0, 1] bcast_S100000x1_S100000x40_0_1 (Host.log (broadcastInDim S100000x1 ![0] bcast_S100000_S100000x1_0
        (Host.reduceAdd (Host.exp (subf v (broadcastInDim S100000x40 ![0, 1] bcast_S100000x1_S100000x40_0_1 (broadcastInDim S100000x1 ![0] bcast_S100000_S100000x1_0 M))))
          (constant (F := Ideal) S_ .f32 0x00000000#32) reducesTo_S100000x40_S100000_d1 h_S_))))
      = Model.logSoftmax v := by
  have e5 : subf v (broadcastInDim S100000x40 ![0, 1] bcast_S100000x1_S100000x40_0_1 (broadcastInDim S100000x1 ![0] bcast_S100000_S100000x1_0 M))
        = fun j => v j - Model.rowMax v (j 0) := by
    funext j
    rw [subf_apply, bcol2_apply (by decide) bcast_S100000x1_S100000x40_0_1, bcol1_apply (by decide) bcast_S100000_S100000x1_0]
    exact congrArg (v j - ·) (hM (j 0))
  rw [e5]
  funext i
  rw [subf_apply, bcol2_apply (by decide) bcast_S100000x1_S100000x40_0_1, hostLog_apply,
    bcol1_apply (by decide) bcast_S100000_S100000x1_0]
  exact congrArg (fun t => (v i - Model.rowMax v (i 0)) - Ideal.log t)
    (rowSum_eq (Host.exp fun j => v j - Model.rowMax v (j 0)) (i 0))

/-- The outlined log-softmax. -/
theorem logSoftmax_eq (v : Model.FArr S100000x40) :
    subf (subf v (broadcastInDim S100000x40 ![0, 1] bcast_S100000x1_S100000x40_0_1 (broadcastInDim S100000x1 ![0] bcast_S100000_S100000x1_0
          (maximumf (broadcastInDim S100000 ![] bcast_S_S100000 (constant (F := Ideal) S_ .f32 0xFF800000#32))
            (Host.reduce FloatOps.maximumf v (constant (F := Ideal) S_ .f32 0xFF800000#32) reducesTo_S100000x40_S100000_d1 h_S_)))))
      (broadcastInDim S100000x40 ![0, 1] bcast_S100000x1_S100000x40_0_1 (Host.log (broadcastInDim S100000x1 ![0] bcast_S100000_S100000x1_0
        (Host.reduceAdd (Host.exp (subf v (broadcastInDim S100000x40 ![0, 1] bcast_S100000x1_S100000x40_0_1 (broadcastInDim S100000x1 ![0] bcast_S100000_S100000x1_0
          (maximumf (broadcastInDim S100000 ![] bcast_S_S100000 (constant (F := Ideal) S_ .f32 0xFF800000#32))
            (Host.reduce FloatOps.maximumf v (constant (F := Ideal) S_ .f32 0xFF800000#32) reducesTo_S100000x40_S100000_d1 h_S_))))))
          (constant (F := Ideal) S_ .f32 0x00000000#32) reducesTo_S100000x40_S100000_d1 h_S_))))
      = Model.logSoftmax v :=
  logSoftmax_core v _ (rowMax_eq v)

/-- Contents carried to a typed reference's buffer and back are the contents. -/
theorem ofBuf_toBuf {sig : RefSig} {Val : EltTy → Type} {T : BufTy} (x : TRef sig T) (v : T.Contents Val) :
    x.ofBuf (x.toBuf v) = v := by
  obtain ⟨r, h, h1, h2⟩ := x
  subst h
  rfl

/-! ## Each window read by itself

For a window and a buffer: what the buffer holds after the window's operations, as a function of what the buffers the
window reads held before them; a buffer the window does not write holds what it held. -/

section Windows

local macro "⟪" r:term "⟫" : term => `((Proc.devRef (Proc.tc : Proc τ) $r : DevRef τ sig))

variable (V : Valuation τ sig (Elt Ideal))

/- The first window: the edge table's rows and the first product. -/
theorem wA_v1 : after (wA (F := Ideal)) V ⟪main_v1⟫ = Model.src (V ⟪main_arg1⟫) := by after_results_simp <;> rfl
theorem wA_v3 : after (wA (F := Ideal)) V ⟪main_v3⟫ = Model.dst (V ⟪main_arg1⟫) := by after_results_simp <;> rfl
theorem wA_v4 : after (wA (F := Ideal)) V ⟪main_v4⟫ = Model.mm (V ⟪main_arg0⟫) (V ⟪main_arg3⟫) := by
  after_results_simp
  exact dot64_eq _ _
theorem wA_arg0 : after (wA (F := Ideal)) V ⟪main_arg0⟫ = V ⟪main_arg0⟫ := by after_results_simp
theorem wA_arg1 : after (wA (F := Ideal)) V ⟪main_arg1⟫ = V ⟪main_arg1⟫ := by after_results_simp
theorem wA_arg2 : after (wA (F := Ideal)) V ⟪main_arg2⟫ = V ⟪main_arg2⟫ := by after_results_simp
theorem wA_arg3 : after (wA (F := Ideal)) V ⟪main_arg3⟫ = V ⟪main_arg3⟫ := by after_results_simp
theorem wA_arg4 : after (wA (F := Ideal)) V ⟪main_arg4⟫ = V ⟪main_arg4⟫ := by after_results_simp
theorem wA_arg5 : after (wA (F := Ideal)) V ⟪main_arg5⟫ = V ⟪main_arg5⟫ := by after_results_simp
theorem wA_arg6 : after (wA (F := Ideal)) V ⟪main_arg6⟫ = V ⟪main_arg6⟫ := by after_results_simp

/- The second window: the first layer's degree, coefficients and aggregate. -/
theorem wB_v39 : after (wB (F := Ideal)) V ⟪main_v39⟫
    = Model.agg64 (V ⟪main_v4⟫) (V ⟪main_v1⟫) (V ⟪main_v3⟫) (Model.coef (V ⟪main_v1⟫) (V ⟪main_v3⟫) (V ⟪main_arg2⟫) (Model.dinv (V ⟪main_v3⟫) (V ⟪main_arg2⟫))) := by
  after_results_simp <;> rfl
theorem wB_v40 : after (wB (F := Ideal)) V ⟪main_v40⟫
    = mulf (F := Ideal) (s := S100000) (φ := .f32) (Model.dinv (V ⟪main_v3⟫) (V ⟪main_arg2⟫)) (Model.dinv (V ⟪main_v3⟫) (V ⟪main_arg2⟫)) := by
  after_results_simp <;> rfl
theorem wB_v4 : after (wB (F := Ideal)) V ⟪main_v4⟫ = V ⟪main_v4⟫ := by after_results_simp
theorem wB_v1 : after (wB (F := Ideal)) V ⟪main_v1⟫ = V ⟪main_v1⟫ := by after_results_simp
theorem wB_v3 : after (wB (F := Ideal)) V ⟪main_v3⟫ = V ⟪main_v3⟫ := by after_results_simp
theorem wB_arg0 : after (wB (F := Ideal)) V ⟪main_arg0⟫ = V ⟪main_arg0⟫ := by after_results_simp
theorem wB_arg1 : after (wB (F := Ideal)) V ⟪main_arg1⟫ = V ⟪main_arg1⟫ := by after_results_simp
theorem wB_arg2 : after (wB (F := Ideal)) V ⟪main_arg2⟫ = V ⟪main_arg2⟫ := by after_results_simp
theorem wB_arg3 : after (wB (F := Ideal)) V ⟪main_arg3⟫ = V ⟪main_arg3⟫ := by after_results_simp
theorem wB_arg4 : after (wB (F := Ideal)) V ⟪main_arg4⟫ = V ⟪main_arg4⟫ := by after_results_simp
theorem wB_arg5 : after (wB (F := Ideal)) V ⟪main_arg5⟫ = V ⟪main_arg5⟫ := by after_results_simp
theorem wB_arg6 : after (wB (F := Ideal)) V ⟪main_arg6⟫ = V ⟪main_arg6⟫ := by after_results_simp

/- The third window: the first layer's combination and ramp. -/
theorem wC_v48 : after (wC (F := Ideal)) V ⟪main_v48⟫
    = Model.ramp (Model.comb (V ⟪main_v39⟫) (V ⟪main_v4⟫) (Model.colOf (V ⟪main_v40⟫)) (Model.rowOf (V ⟪main_arg4⟫))) := by
  after_results_simp
  exact ramp_comb64 _ _ _ _
theorem wC_v1 : after (wC (F := Ideal)) V ⟪main_v1⟫ = V ⟪main_v1⟫ := by after_results_simp
theorem wC_v3 : after (wC (F := Ideal)) V ⟪main_v3⟫ = V ⟪main_v3⟫ := by after_results_simp
theorem wC_arg0 : after (wC (F := Ideal)) V ⟪main_arg0⟫ = V ⟪main_arg0⟫ := by after_results_simp
theorem wC_arg1 : after (wC (F := Ideal)) V ⟪main_arg1⟫ = V ⟪main_arg1⟫ := by after_results_simp
theorem wC_arg2 : after (wC (F := Ideal)) V ⟪main_arg2⟫ = V ⟪main_arg2⟫ := by after_results_simp
theorem wC_arg3 : after (wC (F := Ideal)) V ⟪main_arg3⟫ = V ⟪main_arg3⟫ := by after_results_simp
theorem wC_arg4 : after (wC (F := Ideal)) V ⟪main_arg4⟫ = V ⟪main_arg4⟫ := by after_results_simp
theorem wC_arg5 : after (wC (F := Ideal)) V ⟪main_arg5⟫ = V ⟪main_arg5⟫ := by after_results_simp
theorem wC_arg6 : after (wC (F := Ideal)) V ⟪main_arg6⟫ = V ⟪main_arg6⟫ := by after_results_simp

/- The fourth window: the unit weights and the second product. -/
theorem wD_v50 : after (wD (F := Ideal)) V ⟪main_v50⟫ = Model.mm (V ⟪main_v48⟫) (V ⟪main_arg5⟫) := by
  after_results_simp
  exact dot40_eq _ _
theorem wD_v49 : after (wD (F := Ideal)) V ⟪main_v49⟫ = Model.ones := by after_results_simp <;> rfl
theorem wD_v1 : after (wD (F := Ideal)) V ⟪main_v1⟫ = V ⟪main_v1⟫ := by after_results_simp
theorem wD_v3 : after (wD (F := Ideal)) V ⟪main_v3⟫ = V ⟪main_v3⟫ := by after_results_simp
theorem wD_arg0 : after (wD (F := Ideal)) V ⟪main_arg0⟫ = V ⟪main_arg0⟫ := by after_results_simp
theorem wD_arg1 : after (wD (F := Ideal)) V ⟪main_arg1⟫ = V ⟪main_arg1⟫ := by after_results_simp
theorem wD_arg2 : after (wD (F := Ideal)) V ⟪main_arg2⟫ = V ⟪main_arg2⟫ := by after_results_simp
theorem wD_arg3 : after (wD (F := Ideal)) V ⟪main_arg3⟫ = V ⟪main_arg3⟫ := by after_results_simp
theorem wD_arg4 : after (wD (F := Ideal)) V ⟪main_arg4⟫ = V ⟪main_arg4⟫ := by after_results_simp
theorem wD_arg5 : after (wD (F := Ideal)) V ⟪main_arg5⟫ = V ⟪main_arg5⟫ := by after_results_simp
theorem wD_arg6 : after (wD (F := Ideal)) V ⟪main_arg6⟫ = V ⟪main_arg6⟫ := by after_results_simp

/- The fifth window: the second layer's degree, coefficients and aggregate. -/
theorem wE_v85 : after (wE (F := Ideal)) V ⟪main_v85⟫
    = Model.agg40 (V ⟪main_v50⟫) (V ⟪main_v1⟫) (V ⟪main_v3⟫) (Model.coef (V ⟪main_v1⟫) (V ⟪main_v3⟫) (V ⟪main_v49⟫) (Model.dinv (V ⟪main_v3⟫) (V ⟪main_v49⟫))) := by
  after_results_simp <;> rfl
theorem wE_v86 : after (wE (F := Ideal)) V ⟪main_v86⟫
    = mulf (F := Ideal) (s := S100000) (φ := .f32) (Model.dinv (V ⟪main_v3⟫) (V ⟪main_v49⟫)) (Model.dinv (V ⟪main_v3⟫) (V ⟪main_v49⟫)) := by
  after_results_simp <;> rfl
theorem wE_v50 : after (wE (F := Ideal)) V ⟪main_v50⟫ = V ⟪main_v50⟫ := by after_results_simp
theorem wE_arg0 : after (wE (F := Ideal)) V ⟪main_arg0⟫ = V ⟪main_arg0⟫ := by after_results_simp
theorem wE_arg1 : after (wE (F := Ideal)) V ⟪main_arg1⟫ = V ⟪main_arg1⟫ := by after_results_simp
theorem wE_arg2 : after (wE (F := Ideal)) V ⟪main_arg2⟫ = V ⟪main_arg2⟫ := by after_results_simp
theorem wE_arg3 : after (wE (F := Ideal)) V ⟪main_arg3⟫ = V ⟪main_arg3⟫ := by after_results_simp
theorem wE_arg4 : after (wE (F := Ideal)) V ⟪main_arg4⟫ = V ⟪main_arg4⟫ := by after_results_simp
theorem wE_arg5 : after (wE (F := Ideal)) V ⟪main_arg5⟫ = V ⟪main_arg5⟫ := by after_results_simp
theorem wE_arg6 : after (wE (F := Ideal)) V ⟪main_arg6⟫ = V ⟪main_arg6⟫ := by after_results_simp

/- The sixth window: the second layer's combination. -/
theorem wF_v93 : after (wF (F := Ideal)) V ⟪main_v93⟫
    = Model.comb (V ⟪main_v85⟫) (V ⟪main_v50⟫) (Model.colOf (V ⟪main_v86⟫)) (Model.rowOf (V ⟪main_arg6⟫)) := by
  after_results_simp
  exact comb40 _ _ _ _
theorem wF_arg0 : after (wF (F := Ideal)) V ⟪main_arg0⟫ = V ⟪main_arg0⟫ := by after_results_simp
theorem wF_arg1 : after (wF (F := Ideal)) V ⟪main_arg1⟫ = V ⟪main_arg1⟫ := by after_results_simp
theorem wF_arg2 : after (wF (F := Ideal)) V ⟪main_arg2⟫ = V ⟪main_arg2⟫ := by after_results_simp
theorem wF_arg3 : after (wF (F := Ideal)) V ⟪main_arg3⟫ = V ⟪main_arg3⟫ := by after_results_simp
theorem wF_arg4 : after (wF (F := Ideal)) V ⟪main_arg4⟫ = V ⟪main_arg4⟫ := by after_results_simp
theorem wF_arg5 : after (wF (F := Ideal)) V ⟪main_arg5⟫ = V ⟪main_arg5⟫ := by after_results_simp
theorem wF_arg6 : after (wF (F := Ideal)) V ⟪main_arg6⟫ = V ⟪main_arg6⟫ := by after_results_simp

/- The seventh window: the row-wise log-softmax. -/
theorem wG_v94 : after (wG (F := Ideal)) V ⟪main_v94⟫ = Model.logSoftmax (V ⟪main_v93⟫) := by
  after_results_simp
  simp only [ofBuf_toBuf]
  exact logSoftmax_eq _
theorem wG_arg0 : after (wG (F := Ideal)) V ⟪main_arg0⟫ = V ⟪main_arg0⟫ := by after_results_simp
theorem wG_arg1 : after (wG (F := Ideal)) V ⟪main_arg1⟫ = V ⟪main_arg1⟫ := by after_results_simp
theorem wG_arg2 : after (wG (F := Ideal)) V ⟪main_arg2⟫ = V ⟪main_arg2⟫ := by after_results_simp
theorem wG_arg3 : after (wG (F := Ideal)) V ⟪main_arg3⟫ = V ⟪main_arg3⟫ := by after_results_simp
theorem wG_arg4 : after (wG (F := Ideal)) V ⟪main_arg4⟫ = V ⟪main_arg4⟫ := by after_results_simp
theorem wG_arg5 : after (wG (F := Ideal)) V ⟪main_arg5⟫ = V ⟪main_arg5⟫ := by after_results_simp
theorem wG_arg6 : after (wG (F := Ideal)) V ⟪main_arg6⟫ = V ⟪main_arg6⟫ := by after_results_simp

/-! ## The whole line -/

/-- The result buffer after the whole line: the network of the arguments' contents before it. -/
theorem out_eq : after (ops (F := Ideal)) V ⟪main_v94⟫
    = Model.out (V ⟪main_arg0⟫) (V ⟪main_arg1⟫) (V ⟪main_arg2⟫) (V ⟪main_arg3⟫) (V ⟪main_arg4⟫) (V ⟪main_arg5⟫) (V ⟪main_arg6⟫) := by
  rw [ops_split]
  simp only [after_append]
  rw [wG_v94, wF_v93, wE_v85, wE_v86, wE_v50, wE_arg6, wD_v50, wD_v49, wD_v1, wD_v3, wD_arg6,
    wC_v48, wC_v1, wC_v3, wC_arg5, wC_arg6, wB_v39, wB_v40, wB_v4, wB_v1, wB_v3, wB_arg4, wB_arg5, wB_arg6,
    wA_v1, wA_v3, wA_v4, wA_arg2, wA_arg4, wA_arg5, wA_arg6]
  rfl

/-- Argument 0 is unchanged by the whole line. -/
theorem arg0_eq : after (ops (F := Ideal)) V ⟪main_arg0⟫ = V ⟪main_arg0⟫ := by
  rw [ops_split]
  simp only [after_append]
  rw [wG_arg0, wF_arg0, wE_arg0, wD_arg0, wC_arg0, wB_arg0, wA_arg0]
/-- Argument 1 is unchanged by the whole line. -/
theorem arg1_eq : after (ops (F := Ideal)) V ⟪main_arg1⟫ = V ⟪main_arg1⟫ := by
  rw [ops_split]
  simp only [after_append]
  rw [wG_arg1, wF_arg1, wE_arg1, wD_arg1, wC_arg1, wB_arg1, wA_arg1]
/-- Argument 2 is unchanged by the whole line. -/
theorem arg2_eq : after (ops (F := Ideal)) V ⟪main_arg2⟫ = V ⟪main_arg2⟫ := by
  rw [ops_split]
  simp only [after_append]
  rw [wG_arg2, wF_arg2, wE_arg2, wD_arg2, wC_arg2, wB_arg2, wA_arg2]
/-- Argument 3 is unchanged by the whole line. -/
theorem arg3_eq : after (ops (F := Ideal)) V ⟪main_arg3⟫ = V ⟪main_arg3⟫ := by
  rw [ops_split]
  simp only [after_append]
  rw [wG_arg3, wF_arg3, wE_arg3, wD_arg3, wC_arg3, wB_arg3, wA_arg3]
/-- Argument 4 is unchanged by the whole line. -/
theorem arg4_eq : after (ops (F := Ideal)) V ⟪main_arg4⟫ = V ⟪main_arg4⟫ := by
  rw [ops_split]
  simp only [after_append]
  rw [wG_arg4, wF_arg4, wE_arg4, wD_arg4, wC_arg4, wB_arg4, wA_arg4]
/-- Argument 5 is unchanged by the whole line. -/
theorem arg5_eq : after (ops (F := Ideal)) V ⟪main_arg5⟫ = V ⟪main_arg5⟫ := by
  rw [ops_split]
  simp only [after_append]
  rw [wG_arg5, wF_arg5, wE_arg5, wD_arg5, wC_arg5, wB_arg5, wA_arg5]
/-- Argument 6 is unchanged by the whole line. -/
theorem arg6_eq : after (ops (F := Ideal)) V ⟪main_arg6⟫ = V ⟪main_arg6⟫ := by
  rw [ops_split]
  simp only [after_append]
  rw [wG_arg6, wF_arg6, wE_arg6, wD_arg6, wC_arg6, wB_arg6, wA_arg6]

end Windows

/-- On every device, from any memory with zero counters: every weakly fair execution of @main terminates with the result
    buffer at the network of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v94) = Cert.Model.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v94).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c))⟩)
    (run_seq scopedRefs_eq scopedSems_eq defs main (fun _ => ops) main_eq (fun _ => ops_sub) m ρ)

end Cert.RefRun

end
-- ==== Proof.lean ====
/-
  The certificate of a two-layer graph convolution with a row-wise log-softmax, in four kernel regions, against its
  plain reference.

  Both programs compute, from node features x, an edge table, edge weights w and two weight matrices with biases,
      out = log_softmax (conv (relu (conv (x · W1) w b1) · W2) 1 b2),   conv h w b = A h + δ² ⊙ h + b
  (Proof/Model.lean: δ the inverse square root of one plus the weights summed into the edges' targets, A h the
  edge-coefficient-weighted sum of the sources' rows into the targets' rows). The kernel program computes the two
  matrix products and the two combinations (the second with the log-softmax) in regions that walk 20 blocks of 5000
  rows, and the edge stages on the host between them; the reference computes everything on the host. At the ideal
  values a region's output array is the model's dense stage of its input arrays (Proof/RegionMm.lean,
  Proof/RegionComb.lean), the host stretches are the model's edge stages verbatim, and following the buffers through
  the program's eight segments gives the model's output at the result (Proof/KernelValue.lean over the run of
  Proof/KernelRun.lean). The reference's run ends at the same function of its arguments (Proof/RefRun.lean). No law
  of the extended reals beyond max (−∞-word's value) x = x for x a fold of max from that value and 0 + x = x is used:
  both programs apply the same operations in the same order, so the precondition is never opened.

  The three frames are the generated frames (the reference's: its run with the result dropped); the idealization
  rewrote nothing, so its conjunct is trivial.
-/
import proofs.«117384_j51410758533499_1_alg».proof.Defs
import proofs.«117384_j51410758533499_1_alg».proof.Proof.Gen.Kernel
import proofs.«117384_j51410758533499_1_alg».proof.Proof.Gen.Kernel.Skeleton
import proofs.«117384_j51410758533499_1_alg».proof.Proof.Gen.Kernel.Launch
import proofs.«117384_j51410758533499_1_alg».proof.Proof.Gen.Kernel.Points
import proofs.«117384_j51410758533499_1_alg».proof.Proof.Gen.Kernel.Frame
import proofs.«117384_j51410758533499_1_alg».proof.Proof.Gen.KernelIdeal
import proofs.«117384_j51410758533499_1_alg».proof.Proof.Gen.KernelIdeal.Skeleton
import proofs.«117384_j51410758533499_1_alg».proof.Proof.Gen.KernelIdeal.Launch
import proofs.«117384_j51410758533499_1_alg».proof.Proof.Gen.KernelIdeal.Points
import proofs.«117384_j51410758533499_1_alg».proof.Proof.Gen.KernelIdeal.Frame
import proofs.«117384_j51410758533499_1_alg».proof.Proof.Gen.ReferenceIdeal
import proofs.«117384_j51410758533499_1_alg».proof.Proof.Gen.Pre_finite_inputs
import proofs.«117384_j51410758533499_1_alg».proof.Proof.KernelRun
import proofs.«117384_j51410758533499_1_alg».proof.Proof.KernelValue
import proofs.«117384_j51410758533499_1_alg».proof.Proof.RefRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_reference : Cert.frame_ReferenceIdeal := fun m ρ _ =>
  (θ_run Cert.ReferenceIdeal.defs _ _).mono (fun _ h c => (h c).2) (Cert.RefRun.run m ρ)

/-- Both runs end with the result array at the model's output of the arguments, and the arguments agree. -/
theorem algebraic : Cert.algebraic_KernelIdeal_ReferenceIdeal := by
  intro m ρ m' ρ' _ hagree
  refine ⟨fun c => Cert.Model.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.KernelValue.result m ρ c), (h c).2⟩)
      (Cert.KernelIdeal.RunValue.run_named (F := Ideal) m ρ)
  · refine (θ_run Cert.ReferenceIdeal.defs _ _).mono (fun r h c => ⟨(h c).1.trans ?_, (h c).2⟩) (Cert.RefRun.run m' ρ')
    obtain ⟨e0, e1, e2, e3, e4, e5, e6⟩ := hagree c
    rw [e0, e1, e2, e3, e4, e5, e6]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
